-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4096x12288 : Shape := ⟨2, ![4096, 12288]⟩
abbrev S1024x128 : Shape := ⟨2, ![1024, 128]⟩
abbrev S32x4096 : Shape := ⟨2, ![32, 4096]⟩
abbrev S8x4096 : Shape := ⟨2, ![8, 4096]⟩
abbrev S32x12288 : Shape := ⟨2, ![32, 12288]⟩
abbrev S8x128 : Shape := ⟨2, ![8, 128]⟩
abbrev S1x4096 : Shape := ⟨2, ![1, 4096]⟩
abbrev S31x4096 : Shape := ⟨2, ![31, 4096]⟩
abbrev S32x4095 : Shape := ⟨2, ![32, 4095]⟩
abbrev S32x1 : Shape := ⟨2, ![32, 1]⟩
abbrev S32 : Shape := ⟨1, ![32]⟩
abbrev S1 : Shape := ⟨1, ![1]⟩
abbrev S1x1 : Shape := ⟨2, ![1, 1]⟩
abbrev S_ : Shape := ⟨0, ![]⟩

abbrev nBuf : Space → Nat
  | .hbm => 15
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x12288, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1024x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S8x4096, .f32⟩
  | .local _ .vmem, ⟨10, _⟩ => ⟨S8x4096, .f32⟩
  | .local _ .vmem, ⟨11, _⟩ => ⟨S8x4096, .f32⟩
  | .local _ .vmem, ⟨12, _⟩ => ⟨S32x12288, .f32⟩
  | .local _ .vmem, ⟨13, _⟩ => ⟨S32x12288, .f32⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S32x4096, .f32⟩
  | .local _ .vmem, ⟨18, _⟩ => ⟨S32x4096, .f32⟩
  | .local _ .vmem, ⟨19, _⟩ => ⟨S32x4096, .f32⟩
  | .local _ .vmem, ⟨20, _⟩ => ⟨S32x4096, .f32⟩
  | .local _ .vmem, ⟨21, _⟩ => ⟨S32x4096, .f32⟩
  | .local _ .vmem, ⟨22, _⟩ => ⟨S8x128, .f32⟩
  | .local _ .vmem, ⟨23, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x12288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S32x4096_S32x4096_0_0 : ∀ a, (![0, 0] : Fin 2 → Nat) a + S32x4096.size a ≤ S32x4096.size a
  h_S32x4096 : 0 < S32x4096.numel
  inb_S8x4096_S8x4096_0_0 : ∀ a, (![0, 0] : Fin 2 → Nat) a + S8x4096.size a ≤ S8x4096.size a
  h_S8x4096 : 0 < S8x4096.numel
  slices_S32x4096_o31_0_S1x4096 : S32x4096.Slices ![31, 0] S1x4096
  slices_S8x4096_o0_0_S1x4096 : S8x4096.Slices ![0, 0] S1x4096
  slices_S32x4096_o1_0_S31x4096 : S32x4096.Slices ![1, 0] S31x4096
  concatenates_S31x4096_S1x4096_S32x4096_d0 : Shape.Concatenates [S31x4096, S1x4096] S32x4096 0
  natLt_1_32 : 1 < 32
  slices_S32x4096_o0_0_S31x4096 : S32x4096.Slices ![0, 0] S31x4096
  slices_S32x4096_o30_0_S1x4096 : S32x4096.Slices ![30, 0] S1x4096
  slices_S32x4096_o0_1_S32x4095 : S32x4096.Slices ![0, 1] S32x4095
  slices_S32x4096_o0_4095_S32x1 : S32x4096.Slices ![0, 4095] S32x1
  concatenates_S32x4095_S32x1_S32x4096_d1 : Shape.Concatenates [S32x4095, S32x1] S32x4096 1
  slices_S32x4096_o0_0_S32x4095 : S32x4096.Slices ![0, 0] S32x4095
  slices_S32x4096_o0_4094_S32x1 : S32x4096.Slices ![0, 4094] S32x1
  inb_S32x12288_S32x4096_0_0 : ∀ a, (![0, 0] : Fin 2 → Nat) a + S32x4096.size a ≤ S32x12288.size a
  inb_S32x12288_S32x4096_0_4096 : ∀ a, (![0, 4096] : Fin 2 → Nat) a + S32x4096.size a ≤ S32x12288.size a
  inb_S32x12288_S32x4096_0_8192 : ∀ a, (![0, 8192] : Fin 2 → Nat) a + S32x4096.size a ≤ S32x12288.size a
  reduces_S32x4096_S32 : S32x4096.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S1024x128_S_d0_1 : S1024x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S4096x4096.size a
  hwx0_0 : ∀ i : grid0.Coords, EltTy.bits .f32 = 32 ∨ (Rect.block (s := S4096x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S4096x4096.size a
  hwx0_1 : ∀ i : grid0.Coords, EltTy.bits .f32 = 32 ∨ (Rect.block (s := S4096x4096) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S4096x4096.size a
  hwx0_2 : ∀ i : grid0.Coords, EltTy.bits .f32 = 32 ∨ (Rect.block (s := S4096x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S4096x4096.size a
  hwx0_3 : ∀ i : grid0.Coords, EltTy.bits .f32 = 32 ∨ (Rect.block (s := S4096x4096) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S4096x4096.size a
  hwx0_4 : ∀ i : grid0.Coords, EltTy.bits .f32 = 32 ∨ (Rect.block (s := S4096x4096) S8x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x4096.size a ≤ S4096x4096.size a
  hwx0_5 : ∀ i : grid0.Coords, EltTy.bits .f32 = 32 ∨ (Rect.block (s := S4096x4096) S8x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x12288.size a ≤ S4096x12288.size a
  hwx0_6 : ∀ i : grid0.Coords, EltTy.bits .f32 = 32 ∨ (Rect.block (s := S4096x12288) S32x12288.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S4096x4096.size a
  hwx0_7 : ∀ i : grid0.Coords, EltTy.bits .f32 = 32 ∨ (Rect.block (s := S4096x4096) S32x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x4096.size a ≤ S4096x4096.size a
  hwx0_8 : ∀ i : grid0.Coords, EltTy.bits .f32 = 32 ∨ (Rect.block (s := S4096x4096) S32x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x4096.size a ≤ S4096x4096.size a
  hwx0_9 : ∀ i : grid0.Coords, EltTy.bits .f32 = 32 ∨ (Rect.block (s := S4096x4096) S32x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x4096.size a ≤ S4096x4096.size a
  hwx0_10 : ∀ i : grid0.Coords, EltTy.bits .f32 = 32 ∨ (Rect.block (s := S4096x4096) S32x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S1024x128.size a
  hwx0_11 : ∀ i : grid0.Coords, EltTy.bits .f32 = 32 ∨ (Rect.block (s := S1024x128) S8x128.size (cc0_transform_11 i) (hinb0_11 i)).WholeWords (EltTy.packing .f32)

variable [Facts₀]

abbrev win0_0 : Pipeline.Window sig grid0 :=
  Pipeline.Window.ofSpec (Memref.whole main_arg0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S8x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S8x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S32x12288.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S32x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S32x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S32x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_4) S32x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_5) S8x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096x1 : Shape := ⟨2, ![4096, 1]⟩
abbrev S4096x4097 : Shape := ⟨2, ![4096, 4097]⟩
abbrev S1x4096 : Shape := ⟨2, ![1, 4096]⟩
abbrev S4097x4096 : Shape := ⟨2, ![4097, 4096]⟩
abbrev S4096x4095 : Shape := ⟨2, ![4096, 4095]⟩
abbrev S4095x4096 : Shape := ⟨2, ![4095, 4096]⟩
abbrev S4096x12288 : Shape := ⟨2, ![4096, 12288]⟩

abbrev nBuf : Space → Nat
  | .hbm => 92
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x4097, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x4096, .f32⟩
  | .hbm, ⟨15, _⟩ => ⟨S4097x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x1, .f32⟩
  | .hbm, ⟨20, _⟩ => ⟨S4096x4097, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4097x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4095, .f32⟩
  | .hbm, ⟨30, _⟩ => ⟨S4096x4095, .f32⟩
  | .hbm, ⟨31, _⟩ => ⟨S4096x4095, .f32⟩
  | .hbm, ⟨32, _⟩ => ⟨S4096x1, .f32⟩
  | .hbm, ⟨33, _⟩ => ⟨S4096x4096, .f32⟩
  | .hbm, ⟨34, _⟩ => ⟨S4095x4096, .f32⟩
  | .hbm, ⟨35, _⟩ => ⟨S4095x4096, .f32⟩
  | .hbm, ⟨36, _⟩ => ⟨S4095x4096, .f32⟩
  | .hbm, ⟨37, _⟩ => ⟨S1x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .i1⟩
  | .hbm, ⟨45, _⟩ => ⟨S4096x4096, .i1⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v8 : Ref sig .tc := ⟨.hbm, 18, rfl⟩
abbrev main_v9 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_v10 : Ref sig .tc := ⟨.hbm, 23, rfl⟩
abbrev main_v11 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_v12 : Ref sig .tc := ⟨.hbm, 28, rfl⟩
abbrev main_call4_v0 : Ref sig .tc := ⟨.hbm, 29, rfl⟩
abbrev main_call4_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call5_v0 : Ref sig .tc := ⟨.hbm, 34, rfl⟩
abbrev main_call5_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_call6_v0 : Ref sig .tc := ⟨.hbm, 47, rfl⟩
abbrev main_call6_v1 : Ref sig .tc := ⟨.hbm, 48, rfl⟩
abbrev main_v24 : Ref sig .tc := ⟨.hbm, 49, rfl⟩
abbrev main_cst_3 : Ref sig .tc := ⟨.hbm, 50, rfl⟩
abbrev main_call7_v0 : Ref sig .tc := ⟨.hbm, 51, rfl⟩
abbrev main_call7_v1 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S4096x4096_S4096x1_0_4095 : S4096x4096.Slices ![0, 4095] S4096x1
  concatenates_S4096x4096_S4096x1_S4096x4097_d1 : Shape.Concatenates [S4096x4096, S4096x1] S4096x4097 1
  slices_S4096x4097_S4096x4096_0_1 : S4096x4097.Slices ![0, 1] S4096x4096
  slices_S4096x4097_S4096x4096_0_0 : S4096x4097.Slices ![0, 0] S4096x4096
  slices_S4096x4096_S1x4096_4095_0 : S4096x4096.Slices ![4095, 0] S1x4096
  concatenates_S4096x4096_S1x4096_S4097x4096_d0 : Shape.Concatenates [S4096x4096, S1x4096] S4097x4096 0
  slices_S4097x4096_S4096x4096_1_0 : S4097x4096.Slices ![1, 0] S4096x4096
  slices_S4097x4096_S4096x4096_0_0 : S4097x4096.Slices ![0, 0] S4096x4096
  slices_S4096x4096_S4096x4095_0_1 : S4096x4096.Slices ![0, 1] S4096x4095
  slices_S4096x4096_S4096x4095_0_0 : S4096x4096.Slices ![0, 0] S4096x4095
  slices_S4096x4095_S4096x1_0_4094 : S4096x4095.Slices ![0, 4094] S4096x1
  concatenates_S4096x4095_S4096x1_S4096x4096_d1 : Shape.Concatenates [S4096x4095, S4096x1] S4096x4096 1
  slices_S4096x4096_S4095x4096_1_0 : S4096x4096.Slices ![1, 0] S4095x4096
  slices_S4096x4096_S4095x4096_0_0 : S4096x4096.Slices ![0, 0] S4095x4096
  slices_S4095x4096_S1x4096_4094_0 : S4095x4096.Slices ![4094, 0] S1x4096
  concatenates_S4095x4096_S1x4096_S4096x4096_d0 : Shape.Concatenates [S4095x4096, S1x4096] S4096x4096 0
  reducesTo_S4096x4096_S_d0_1 : S4096x4096.ReducesTo [0, 1] S_
  h_S_ : 0 < S_.numel
  concatenates_S4096x4096_S4096x4096_S4096x4096_S4096x12288_d1 : Shape.Concatenates [S4096x4096, S4096x4096, S4096x4096] S4096x12288 1

variable [Facts₀]

class Facts : Prop extends Facts₀ where

variable [Facts]
-- ==== Proof.KBVals.lean ====
/-
  The kernel's body as values: the region's entry contents, each window's block at a grid point, and what
  the body leaves in each output window's staging buffer, named after what it computes (the effective mask
  me = [s ≠ 0]·m, the masked source sm = s·me, the forward differences of target and masked source along rows and
  columns, the mask's edges, the exponential weights, and the block's sum of squared weighted residuals).
-/
import proofs.«149716_j34935263986322_2_alg».proof.Proof.Gen.Kernel.Launch
import proofs.«149716_j34935263986322_2_alg».proof.Proof.Gen.Kernel.Skeleton
import proofs.«149716_j34935263986322_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents

  No host operation precedes the region, so every buffer is found as launched. -/

/-- Core `c`'s buffer contents when the region is entered. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S32x4096 := Rect.unit (s := S32x4096) ![0, 0] S32x4096.size inb_S32x4096_S32x4096_0_0
abbrev rB : Rect S8x4096 := Rect.unit (s := S8x4096) ![0, 0] S8x4096.size inb_S8x4096_S8x4096_0_0
abbrev rW0 : Rect S32x12288 := Rect.unit (s := S32x12288) ![0, 0] S32x4096.size inb_S32x12288_S32x4096_0_0
abbrev rW1 : Rect S32x12288 := Rect.unit (s := S32x12288) ![0, 4096] S32x4096.size inb_S32x12288_S32x4096_0_4096
abbrev rW2 : Rect S32x12288 := Rect.unit (s := S32x12288) ![0, 8192] S32x4096.size inb_S32x12288_S32x4096_0_8192
abbrev rP : Rect S8x128 := Rect.unit (s := S8x128) ![0, 0] S8x128.size inb_S8x128_S8x128_0_0

/-! ## The body's values, named

  With t, m, s the blocks of target, mask and source at the point and t', m', s' the peeked 8-row blocks:
  the effective mask, the masked source, the row differences (which read the peeked first row, or at the last
  point the block's own last row), the mask's row edge, the shifted target, the column differences, the zeroed
  target differences, and the two weights. -/

section Vals
variable (i : grid0.Coords) (x0 x1 x2 : Vec F S32x4096 .f32) (x3 x4 x5 : Vec F S8x4096 .f32)

def me : FVec F S32x4096 .f32 := k0_pay4 (View.ld x1 rA) (View.ld x2 rA)
def sm : FVec F S32x4096 .f32 := k0_pay5 (View.ld x1 rA) (View.ld x2 rA)
def gtyRaw : FVec F S32x4096 .f32 := k0_pay7 i (View.ld x0 rA) (View.ld x3 rB)
def gsy : FVec F S32x4096 .f32 := k0_pay8 i (View.ld x1 rA) (View.ld x2 rA) (View.ld x4 rB) (View.ld x5 rB)
def gmy : FVec F S32x4096 .f32 := k0_pay9 i (View.ld x1 rA) (View.ld x2 rA) (View.ld x4 rB) (View.ld x5 rB)
def txs : FVec F S32x4096 .f32 := k0_pay10 (View.ld x0 rA)
def gsx : FVec F S32x4096 .f32 := k0_pay11 (sm x1 x2)
def gbx : FVec F S32x4096 .f32 := k0_pay13 (View.ld x0 rA) (me x1 x2) (gmy i x1 x2 x4 x5) (txs x0)
def gby : FVec F S32x4096 .f32 := k0_pay14 (me x1 x2) (gtyRaw i x0 x3) (gmy i x1 x2 x4 x5)
def wx : FVec F S32x4096 .f32 := k0_pay16 (me x1 x2) (sm x1 x2)
def wy : FVec F S32x4096 .f32 := k0_pay17 (me x1 x2) (sm x1 x2) (gsy i x1 x2 x4 x5)
def part : FVec F S8x128 .f32 :=
  k0_pay2 (gsy i x1 x2 x4 x5) (gsx x1 x2) (gbx i x0 x1 x2 x4 x5) (gby i x0 x1 x2 x3 x4 x5) (wx x1 x2) (wy i x1 x2 x4 x5)

/-! ## What the body leaves in each output window's buffer (its stores as pieces, last first) -/

def out0_6 : Vec F S32x12288 .f32 :=
  View.canon [⟨rW2, k0_pay1 (F := F)⟩, ⟨rW1, wy i x1 x2 x4 x5⟩, ⟨rW0, wx x1 x2⟩]
def out0_7 : Vec F S32x4096 .f32 := View.canon [⟨rA, gbx i x0 x1 x2 x4 x5⟩]
def out0_8 : Vec F S32x4096 .f32 := View.canon [⟨rA, gby i x0 x1 x2 x3 x4 x5⟩]
def out0_9 : Vec F S32x4096 .f32 := View.canon [⟨rA, gsx x1 x2⟩]
def out0_10 : Vec F S32x4096 .f32 := View.canon [⟨rA, gsy i x1 x2 x4 x5⟩]
def out0_11 : Vec F S8x128 .f32 := View.canon [⟨rP, part i x0 x1 x2 x3 x4 x5⟩]

end Vals

theorem cover0_6 (p0 p1 p2 : Vec F S32x4096 .f32) (y : S32x12288.Idx) :
    ∃ pc ∈ ([⟨rW2, p2⟩, ⟨rW1, p1⟩, ⟨rW0, p0⟩] : List (View.Piece (Elt F) S32x12288 .f32)), y ∈ pc.1.set :=
  View.cover_of_tiled [⟨rW2, p2⟩, ⟨rW1, p1⟩, ⟨rW0, p0⟩] S32x4096.size (by rfl) y
theorem coverA (p0 : Vec F S32x4096 .f32) (y : S32x4096.Idx) :
    ∃ pc ∈ ([⟨rA, p0⟩] : List (View.Piece (Elt F) S32x4096 .f32)), y ∈ pc.1.set :=
  View.cover_of_tiled [⟨rA, p0⟩] S32x4096.size (by rfl) y
theorem coverP (p0 : Vec F S8x128 .f32) (y : S8x128.Idx) :
    ∃ pc ∈ ([⟨rP, p0⟩] : List (View.Piece (Elt F) S8x128 .f32)), y ∈ pc.1.set :=
  View.cover_of_tiled [⟨rP, p0⟩] S8x128.size (by rfl) y

end Cert.Kernel.Hand

end
-- ==== Proof.KBBody.lean ====
/-
  The kernel's body run once on whole staging buffers: the six input blocks are left as found and each
  output buffer ends at the canon of the body's stores.
-/
import proofs.«149716_j34935263986322_2_alg».proof.Proof.KBVals
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at read contents and the outputs' at anything, runs to
    the continuation holding the inputs' as they were and each output's at its stores' canon. -/
theorem sound_kernel (c : Dev nD) (E : Set ℕ) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S32x12288 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x4096 .f32) (harg10 : arg10.IsWhole) (arg11 : Memref sig .tc .vmem S32x4096 .f32) (harg11 : arg11.IsWhole) (arg12 : Memref sig .tc .vmem S8x128 .f32) (harg12 : arg12.IsWhole)
    (x0 x1 x2 : Vec F S32x4096 .f32) (x3 x4 x5 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x1 x2 x4 x5) ∗ owns (c : Thread nD τ) arg8 fullShare (out0_7 i x0 x1 x2 x4 x5)
            ∗ owns (c : Thread nD τ) arg9 fullShare (out0_8 i x0 x1 x2 x3 x4 x5) ∗ owns (c : Thread nD τ) arg10 fullShare (out0_9 x1 x2)
            ∗ owns (c : Thread nD τ) arg11 fullShare (out0_10 i x1 x2 x4 x5) ∗ owns (c : Thread nD τ) arg12 fullShare (out0_11 i x0 x1 x2 x3 x4 x5)) -∗ K ⟨⟩))
      ⊢ wp frame (wpE (defs₀ (F := F)) Variants.none c none) E (cc0__ew_kernel i arg1 harg1 arg2 harg2 arg3 harg3 arg4 harg4 arg5 harg5 arg6 harg6 arg7 harg7 arg8 harg8 arg9 harg9 arg10 harg10 arg11 harg11 arg12 harg12) K := by
  simp only [cc0__ew_kernel_eq_skeleton]; unfold cc0__ew_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _ _ _)
  isplitl [H7]
  · iexists _; isplitr
    swap; · iexact H7
    ipureintro
    exact View.read_writes_eq_canon _ _ _ (coverA _)
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  isplitl [H10]
  · iexists _; isplitr
    swap; · iexact H10
    ipureintro
    exact View.read_writes_eq_canon _ _ _ (coverA _)
  iexists _; isplitr
  swap; · iexact H11
  ipureintro
  exact View.read_writes_eq_canon _ _ _ (coverP _)

end Cert.Kernel.Hand

end
-- ==== Proof.KBDat.lean ====
/-
  The proof data of the kernel's pipeline and its body obligation at a generic grid point.
-/
import proofs.«149716_j34935263986322_2_alg».proof.Proof.KBBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at
    point `t` each input's buffer at its block and each output's at the canon of its stores over the input blocks;
    the class's invariant; nothing owed. The target, the mask and the source are each read through two windows
    (the 32-row block and the 8-row peek), which hold the array at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 1 t) (iblk m c 2 t) (iblk m c 4 t) (iblk m c 5 t)
    | ⟨7, _⟩ => out0_7 (grid0.coords t) (iblk m c 0 t) (iblk m c 1 t) (iblk m c 2 t) (iblk m c 4 t) (iblk m c 5 t)
    | ⟨8, _⟩ => out0_8 (grid0.coords t) (iblk m c 0 t) (iblk m c 1 t) (iblk m c 2 t) (iblk m c 3 t) (iblk m c 4 t) (iblk m c 5 t)
    | ⟨9, _⟩ => out0_9 (iblk m c 1 t) (iblk m c 2 t)
    | ⟨10, _⟩ => out0_10 (grid0.coords t) (iblk m c 1 t) (iblk m c 2 t) (iblk m c 4 t) (iblk m c 5 t)
    | ⟨11, _⟩ => out0_11 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left | ⟨1, _⟩ => fullShare.left | ⟨2, _⟩ => fullShare.left
    | ⟨3, _⟩ => fullShare.right | ⟨4, _⟩ => fullShare.right | ⟨5, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 1 t) (iblk m c 2 t) (iblk m c 4 t) (iblk m c 5 t) := by dsimp only [dats]
theorem after0_7 (c : Dev nD) (t : Fin cfg0.N) : (dats m 0 c).after 7 t = out0_7 (grid0.coords t) (iblk m c 0 t) (iblk m c 1 t) (iblk m c 2 t) (iblk m c 4 t) (iblk m c 5 t) := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 1 t) (iblk m c 2 t) := by dsimp only [dats]
theorem after0_10 (c : Dev nD) (t : Fin cfg0.N) : (dats m 0 c).after 10 t = out0_10 (grid0.coords t) (iblk m c 1 t) (iblk m c 2 t) (iblk m c 4 t) (iblk m c 5 t) := by dsimp only [dats]
theorem after0_11 (c : Dev nD) (t : Fin cfg0.N) : (dats m 0 c).after 11 t = out0_11 (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBSplit.lean ====
/-
  The arrays of the kernel's twelve windows at entry: nine buffers, the three arguments each shared by two windows.
-/
import proofs.«149716_j34935263986322_2_alg».proof.Proof.KBDat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, by share -/

theorem arrays_eq' (c : Dev nD) (Fw : (w : Fin cfg0.W) → Buf (Elt F) ((cfg0.win w).arr.view.loc (c.tc : Thread nD τ))) :
    ((dats m 0 c).arrays Fw : sProp 𝕄)
      = bigSep Finset.univ fun w : Fin 12 => (((c.tc : Thread nD τ).loc (Pipeline.arrRef spec0 w)) ↦{(dats m 0 c).share w} Fw w : sProp 𝕄) := by
  unfold Dat.arrays
  exact bigSep_congr fun w _ => by rw [(arr_whole0 w).set_eq_univ]

/-- The nine distinct arrays behind the twelve windows. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_v0_0 ∗ Φ main_v0_1 ∗ Φ main_v0_2 ∗ Φ main_v0_3 ∗ Φ main_v0_4 ∗ Φ main_v0_5) :=
  bigSep_eq_bigSepL_of_eq [main_arg0, main_arg1, main_arg2, main_v0_0, main_v0_1, main_v0_2, main_v0_3, main_v0_4, main_v0_5] (by decide) (by decide) Φ

/-- At entry: each of target, mask and source, held whole, is split between its two windows; each result array
    goes whole to its one window. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [bigSep_arrs]
  iintro ⟨A0, A1, A2, R0, R1, R2, R3, R4, R5⟩
  ihave H0 := (pointsTo_share (PosShare.mem_left_op_right fullShare)).1 $$ A0
  icases H0 with ⟨A0l, A0r⟩
  ihave H1 := (pointsTo_share (PosShare.mem_left_op_right fullShare)).1 $$ A1
  icases H1 with ⟨A1l, A1r⟩
  ihave H2 := (pointsTo_share (PosShare.mem_left_op_right fullShare)).1 $$ A2
  icases H2 with ⟨A2l, A2r⟩
  isplitl [A0l]; · iexact A0l
  isplitl [A1l]; · iexact A1l
  isplitl [A2l]; · iexact A2l
  isplitl [A0r]; · iexact A0r
  isplitl [A1r]; · iexact A1r
  isplitl [A2r]; · iexact A2r
  isplitl [R0]; · iexact R0
  isplitl [R1]; · iexact R1
  isplitl [R2]; · iexact R2
  isplitl [R3]; · iexact R3
  isplitl [R4]; · iexact R4
  iexact R5

end Cert.Kernel.Hand

end
-- ==== Proof.KBTail.lean ====
/-
  The kernel's @main around its region: the host lines after it run from the region's exit contents.
-/
import proofs.«149716_j34935263986322_2_alg».proof.Proof.KBSplit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main is the region followed by the six host lines that sum the loss partials and normalise the sum. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-! ## The lines after the region

  They read the loss partials' array and write five scalars and the loss; they touch none of the other arrays. -/

/-- The buffers the lines after the region touch. -/
def tailS : Finset (DevRef τ sig) :=
  [Proc.devRef (τ := τ) .tc main_v0_5, Proc.devRef .tc main_cst, Proc.devRef .tc main_v1, Proc.devRef .tc main_cst_0,
    Proc.devRef .tc main_v2, Proc.devRef .tc main_cst_1, Proc.devRef .tc main_v3].toFinset

theorem bigSep_tailS {M : Type} [URA M] (Φ : DevRef τ sig → sProp M) :
    bigSep tailS Φ = iprop(Φ (Proc.devRef .tc main_v0_5) ∗ Φ (Proc.devRef .tc main_cst) ∗ Φ (Proc.devRef .tc main_v1) ∗ Φ (Proc.devRef .tc main_cst_0)
      ∗ Φ (Proc.devRef .tc main_v2) ∗ Φ (Proc.devRef .tc main_cst_1) ∗ Φ (Proc.devRef .tc main_v3)) :=
  bigSep_eq_bigSepL_of_eq _ rfl (by decide) Φ

/-- The buffers' contents when the region is left: the loss partials' array at what the write-backs made it, every
    other buffer the lines touch as the region found it. -/
def Wx (c : Dev nD) : Valuation τ sig (Elt F) :=
  Function.update (V0 m c) (Proc.devRef .tc main_v0_5) ((dats m 0 c).arrAt 11 cfg0.N)

/-- And after the lines. -/
def Wt (c : Dev nD) : Valuation τ sig (Elt F) := StableHlo.after hostOps1 (Wx m c)

theorem Wx_partials (c : Dev nD) : Wx m c (Proc.devRef .tc main_v0_5) = (dats m 0 c).arrAt 11 cfg0.N := by
  unfold Wx; exact Function.update_self ..

theorem Wx_of_ne (c : Dev nD) (b : Ref sig .tc) (hb : b ≠ main_v0_5) : Wx m c (Proc.devRef .tc b) = V m c b := by
  unfold Wx; exact Function.update_of_ne (StableHlo.devRef_ne_of_ne hb) ..

/-- The lines do not write the loss partials' array. -/
theorem Wt_partials (c : Dev nD) : Wt m c (Proc.devRef .tc main_v0_5) = (dats m 0 c).arrAt 11 cfg0.N := by
  unfold Wt
  rw [StableHlo.after_of_forall_not_mem (b := Proc.devRef .tc main_v0_5) _ _ (List.forall_iff_forall_mem.mp (by
      simp only [hostOps1, List.Forall, StableHlo.nullary_writes, StableHlo.binary_writes, Finset.mem_singleton]
      repeat' apply And.intro
      all_goals exact StableHlo.devRef_ne_of_ne (by decide)))]
  exact Wx_partials m c

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl
  all_goals (first | rw [StableHlo.nullary_bufs] | rw [StableHlo.binary_bufs]); decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The six scalars the lines write, as the region finds them, and as the lines leave them. -/
def restAt (c : Dev nD) (Wv : Valuation τ sig (Elt F)) : sProp 𝕄 :=
  Pipeline.unscopedRest spec0 c (fun b => Wv (Proc.devRef .tc b))

theorem held_of (c : Dev nD) :
    iprop((((c.tc : Thread nD τ).loc (Pipeline.arrRef spec0 (11 : Fin 12))) ↦{(dats m 0 c).share 11} (dats m 0 c).arrAt 11 cfg0.N)
        ∗ Pipeline.unscopedRest spec0 c (V m c))
      ⊢ (StableHlo.held (c.tc : Thread nD τ) tailS (Wx m c) : sProp 𝕄) := by
  unfold StableHlo.held
  rw [bigSep_tailS, unscopedRest0_eq, Wx_partials, Wx_of_ne m c main_cst (by decide), Wx_of_ne m c main_v1 (by decide), Wx_of_ne m c main_cst_0 (by decide),
    Wx_of_ne m c main_v2 (by decide), Wx_of_ne m c main_cst_1 (by decide), Wx_of_ne m c main_v3 (by decide)]
  iintro ⟨H, Z1, Z2, Z3, Z4, Z5, Z6⟩
  isplitl [H]; · iexact H
  isplitl [Z1]; · iexact Z1
  isplitl [Z2]; · iexact Z2
  isplitl [Z3]; · iexact Z3
  isplitl [Z4]; · iexact Z4
  isplitl [Z5]; · iexact Z5
  iexact Z6

theorem of_held (c : Dev nD) :
    (StableHlo.held (c.tc : Thread nD τ) tailS (Wt m c) : sProp 𝕄)
      ⊢ iprop((((c.tc : Thread nD τ).loc (Pipeline.arrRef spec0 (11 : Fin 12))) ↦{(dats m 0 c).share 11} (dats m 0 c).arrAt 11 cfg0.N)
        ∗ restAt c (Wt m c)) := by
  unfold StableHlo.held restAt
  rw [bigSep_tailS, unscopedRest0_eq, Wt_partials]
  iintro ⟨H, Z1, Z2, Z3, Z4, Z5, Z6⟩
  isplitl [H]; · iexact H
  isplitl [Z1]; · iexact Z1
  isplitl [Z2]; · iexact Z2
  isplitl [Z3]; · iexact Z3
  isplitl [Z4]; · iexact Z4
  isplitl [Z5]; · iexact Z5
  iexact Z6

theorem arrays_take (c : Dev nD) (Fw : (w : Fin cfg0.W) → Buf (Elt F) ((cfg0.win w).arr.view.loc (c.tc : Thread nD τ))) :
    ((dats m 0 c).arrays Fw : sProp 𝕄)
      = iprop((((c.tc : Thread nD τ).loc (Pipeline.arrRef spec0 (11 : Fin 12))) ↦{(dats m 0 c).share 11} Fw 11)
          ∗ bigSep (Finset.univ.erase (11 : Fin 12)) fun w : Fin 12 => (((c.tc : Thread nD τ).loc (Pipeline.arrRef spec0 w)) ↦{(dats m 0 c).share w} Fw w : sProp 𝕄)) :=
  (arrays_eq' m c Fw).trans (bigSep_erase (Finset.mem_univ _))

set_option backward.isDefEq.respectTransparency.types false in
theorem htail (c : Dev nD) (Q' : PUnit → sProp 𝕄) :
    iprop((iprop((dats m 0 c).arrays ((dats m 0 c).arrAt · cfg0.N) ∗ restAt c (Wt m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [arrays_take]
  iintro ⟨Hk, Hb, ⟨H11, Hrem⟩, HZ⟩
  ihave Hh := (held_of m c) $$ [H11 HZ]
  · isplitl [H11]; · iexact H11
    iexact HZ
  iapply (Pipeline.wp_seqs_then (fun q => Cfg.toPCfg (Val := Elt F) (cfgs q)) (defs₀ (F := F)) Variants.none c tailS [] [hostOps1] tail_sub tail_fresh (Wx m c)) $$ [Hb Hh]
  · isplitl [Hb]; · iexact Hb
    iexact Hh
  iintro ⟨Hb, Hh⟩
  rw [Pipeline.chain_nil, wp_pure, show StableHlo.after ([hostOps1] : List (List (HloOp τ sig (Elt F)))).flatten (Wx m c) = Wt m c from by
    unfold Wt; simp only [List.flatten_cons, List.flatten_nil, List.append_nil]]
  imodintro
  iapply Hk
  ihave H2 := (of_held m c) $$ Hh
  icases H2 with ⟨H11, HZ⟩
  isplitr [HZ]
  · isplitl [H11]; · iexact H11
    iexact Hrem
  iexact HZ

end Cert.Kernel.Hand

end
-- ==== Proof.KBRun.lean ====
/-
  The kernel's run: every weakly fair execution of @main ends, with each window's array and the host lines'
  scalars at named contents.
-/
import proofs.«149716_j34935263986322_2_alg».proof.Proof.KBTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the run ends in: every window's array at what the pipeline's write-backs make of the proof data (an input's
    array as found), and each of the six scalars the lines after the region write at what they compute from the
    loss partials' array. -/
def RunPost (r : PUnit × MemSt nD τ sig (Elt F)) : Prop :=
  ∀ c : Dev nD, (∀ w : Fin cfg0.W, r.2.mem ((spec0 w).arr.view.loc (c.tc : Thread nD τ)) = (dats m 0 c).arrAt w cfg0.N)
    ∧ ∀ b ∈ Pipeline.restRefs sig spec0, r.2.mem ((c.tc : Thread nD τ).loc b) = Wt m c (Proc.devRef .tc b)

set_option backward.isDefEq.respectTransparency.types false in
set_option maxHeartbeats 1000000 in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => restAt c (Wt m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefs sig spec0, s.mem ((c.tc : Thread nD τ).loc b) = Wt m c (Proc.devRef .tc b))
    (hY := fun c s' => by
      iintro ⟨-, HU, HSI⟩
      unfold restAt Pipeline.unscopedRest
      imodintro
      iapply (pointsTo_read_all (Pipeline.restRefs sig spec0) (fun b => (c.tc : Thread nD τ).loc b) (fun b => Wt m c (Proc.devRef .tc b)) s')
      isplitl [HU] <;> iassumption)
    (hQ := fun s h c => ⟨(h c).1, (h c).2.2⟩)

end Cert.Kernel.Hand

end
-- ==== Proof.KBFrame.lean ====
/-
  The kernel's frame: it runs to the end and leaves its three argument arrays unchanged.
-/
import proofs.«149716_j34935263986322_2_alg».proof.Proof.KBRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

/-- Every weakly fair execution of @main ends, and the target, the mask and the source end as launched: an input
    window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans ((dats m 0 c).arrAt_in 0 rfl _), ((h c).1 1).trans ((dats m 0 c).arrAt_in 1 rfl _),
      ((h c).1 2).trans ((dats m 0 c).arrAt_in 2 rfl _)⟩) (run_main m ρ)

end Cert.Kernel.Hand

end
-- ==== Proof.KIVals.lean ====
/-
  The idealized kernel's body as values: the region's entry contents, each window's block at a grid point, and what
  the body leaves in each output window's staging buffer, named after what it computes (the effective mask
  me = [s ≠ 0]·m, the masked source sm = s·me, the forward differences of target and masked source along rows and
  columns, the mask's edges, the exponential weights, and the block's sum of squared weighted residuals).
-/
import proofs.«149716_j34935263986322_2_alg».proof.Proof.Gen.KernelIdeal.Launch
import proofs.«149716_j34935263986322_2_alg».proof.Proof.Gen.KernelIdeal.Skeleton
import proofs.«149716_j34935263986322_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents

  No host operation precedes the region, so every buffer is found as launched. -/

/-- Core `c`'s buffer contents when the region is entered. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S32x4096 := Rect.unit (s := S32x4096) ![0, 0] S32x4096.size inb_S32x4096_S32x4096_0_0
abbrev rB : Rect S8x4096 := Rect.unit (s := S8x4096) ![0, 0] S8x4096.size inb_S8x4096_S8x4096_0_0
abbrev rW0 : Rect S32x12288 := Rect.unit (s := S32x12288) ![0, 0] S32x4096.size inb_S32x12288_S32x4096_0_0
abbrev rW1 : Rect S32x12288 := Rect.unit (s := S32x12288) ![0, 4096] S32x4096.size inb_S32x12288_S32x4096_0_4096
abbrev rW2 : Rect S32x12288 := Rect.unit (s := S32x12288) ![0, 8192] S32x4096.size inb_S32x12288_S32x4096_0_8192
abbrev rP : Rect S8x128 := Rect.unit (s := S8x128) ![0, 0] S8x128.size inb_S8x128_S8x128_0_0

/-! ## The body's values, named

  With t, m, s the blocks of target, mask and source at the point and t', m', s' the peeked 8-row blocks:
  the effective mask, the masked source, the row differences (which read the peeked first row, or at the last
  point the block's own last row), the mask's row edge, the shifted target, the column differences, the zeroed
  target differences, and the two weights. -/

section Vals
variable (i : grid0.Coords) (x0 x1 x2 : Vec F S32x4096 .f32) (x3 x4 x5 : Vec F S8x4096 .f32)

def me : FVec F S32x4096 .f32 := k0_pay4 (View.ld x1 rA) (View.ld x2 rA)
def sm : FVec F S32x4096 .f32 := k0_pay5 (View.ld x1 rA) (View.ld x2 rA)
def gtyRaw : FVec F S32x4096 .f32 := k0_pay7 i (View.ld x0 rA) (View.ld x3 rB)
def gsy : FVec F S32x4096 .f32 := k0_pay8 i (View.ld x1 rA) (View.ld x2 rA) (View.ld x4 rB) (View.ld x5 rB)
def gmy : FVec F S32x4096 .f32 := k0_pay9 i (View.ld x1 rA) (View.ld x2 rA) (View.ld x4 rB) (View.ld x5 rB)
def txs : FVec F S32x4096 .f32 := k0_pay10 (View.ld x0 rA)
def gsx : FVec F S32x4096 .f32 := k0_pay11 (sm x1 x2)
def gbx : FVec F S32x4096 .f32 := k0_pay13 (View.ld x0 rA) (me x1 x2) (gmy i x1 x2 x4 x5) (txs x0)
def gby : FVec F S32x4096 .f32 := k0_pay14 (me x1 x2) (gtyRaw i x0 x3) (gmy i x1 x2 x4 x5)
def wx : FVec F S32x4096 .f32 := k0_pay16 (me x1 x2) (sm x1 x2)
def wy : FVec F S32x4096 .f32 := k0_pay17 (me x1 x2) (sm x1 x2) (gsy i x1 x2 x4 x5)
def part : FVec F S8x128 .f32 :=
  k0_pay2 (gsy i x1 x2 x4 x5) (gsx x1 x2) (gbx i x0 x1 x2 x4 x5) (gby i x0 x1 x2 x3 x4 x5) (wx x1 x2) (wy i x1 x2 x4 x5)

/-! ## What the body leaves in each output window's buffer (its stores as pieces, last first) -/

def out0_6 : Vec F S32x12288 .f32 :=
  View.canon [⟨rW2, k0_pay1 (F := F)⟩, ⟨rW1, wy i x1 x2 x4 x5⟩, ⟨rW0, wx x1 x2⟩]
def out0_7 : Vec F S32x4096 .f32 := View.canon [⟨rA, gbx i x0 x1 x2 x4 x5⟩]
def out0_8 : Vec F S32x4096 .f32 := View.canon [⟨rA, gby i x0 x1 x2 x3 x4 x5⟩]
def out0_9 : Vec F S32x4096 .f32 := View.canon [⟨rA, gsx x1 x2⟩]
def out0_10 : Vec F S32x4096 .f32 := View.canon [⟨rA, gsy i x1 x2 x4 x5⟩]
def out0_11 : Vec F S8x128 .f32 := View.canon [⟨rP, part i x0 x1 x2 x3 x4 x5⟩]

end Vals

theorem cover0_6 (p0 p1 p2 : Vec F S32x4096 .f32) (y : S32x12288.Idx) :
    ∃ pc ∈ ([⟨rW2, p2⟩, ⟨rW1, p1⟩, ⟨rW0, p0⟩] : List (View.Piece (Elt F) S32x12288 .f32)), y ∈ pc.1.set :=
  View.cover_of_tiled [⟨rW2, p2⟩, ⟨rW1, p1⟩, ⟨rW0, p0⟩] S32x4096.size (by rfl) y
theorem coverA (p0 : Vec F S32x4096 .f32) (y : S32x4096.Idx) :
    ∃ pc ∈ ([⟨rA, p0⟩] : List (View.Piece (Elt F) S32x4096 .f32)), y ∈ pc.1.set :=
  View.cover_of_tiled [⟨rA, p0⟩] S32x4096.size (by rfl) y
theorem coverP (p0 : Vec F S8x128 .f32) (y : S8x128.Idx) :
    ∃ pc ∈ ([⟨rP, p0⟩] : List (View.Piece (Elt F) S8x128 .f32)), y ∈ pc.1.set :=
  View.cover_of_tiled [⟨rP, p0⟩] S8x128.size (by rfl) y

end Cert.KernelIdeal.Hand

end
-- ==== Proof.KIBody.lean ====
/-
  The idealized kernel's body run once on whole staging buffers: the six input blocks are left as found and each
  output buffer ends at the canon of the body's stores.
-/
import proofs.«149716_j34935263986322_2_alg».proof.Proof.KIVals
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at read contents and the outputs' at anything, runs to
    the continuation holding the inputs' as they were and each output's at its stores' canon. -/
theorem sound_kernel (c : Dev nD) (E : Set ℕ) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S32x12288 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x4096 .f32) (harg10 : arg10.IsWhole) (arg11 : Memref sig .tc .vmem S32x4096 .f32) (harg11 : arg11.IsWhole) (arg12 : Memref sig .tc .vmem S8x128 .f32) (harg12 : arg12.IsWhole)
    (x0 x1 x2 : Vec F S32x4096 .f32) (x3 x4 x5 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x1 x2 x4 x5) ∗ owns (c : Thread nD τ) arg8 fullShare (out0_7 i x0 x1 x2 x4 x5)
            ∗ owns (c : Thread nD τ) arg9 fullShare (out0_8 i x0 x1 x2 x3 x4 x5) ∗ owns (c : Thread nD τ) arg10 fullShare (out0_9 x1 x2)
            ∗ owns (c : Thread nD τ) arg11 fullShare (out0_10 i x1 x2 x4 x5) ∗ owns (c : Thread nD τ) arg12 fullShare (out0_11 i x0 x1 x2 x3 x4 x5)) -∗ K ⟨⟩))
      ⊢ wp frame (wpE (defs₀ (F := F)) Variants.none c none) E (cc0__ew_kernel i arg1 harg1 arg2 harg2 arg3 harg3 arg4 harg4 arg5 harg5 arg6 harg6 arg7 harg7 arg8 harg8 arg9 harg9 arg10 harg10 arg11 harg11 arg12 harg12) K := by
  simp only [cc0__ew_kernel_eq_skeleton]; unfold cc0__ew_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _ _ _)
  isplitl [H7]
  · iexists _; isplitr
    swap; · iexact H7
    ipureintro
    exact View.read_writes_eq_canon _ _ _ (coverA _)
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  isplitl [H10]
  · iexists _; isplitr
    swap; · iexact H10
    ipureintro
    exact View.read_writes_eq_canon _ _ _ (coverA _)
  iexists _; isplitr
  swap; · iexact H11
  ipureintro
  exact View.read_writes_eq_canon _ _ _ (coverP _)

end Cert.KernelIdeal.Hand

end
-- ==== Proof.KIDat.lean ====
/-
  The proof data of the idealized kernel's pipeline and its body obligation at a generic grid point.
-/
import proofs.«149716_j34935263986322_2_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at
    point `t` each input's buffer at its block and each output's at the canon of its stores over the input blocks;
    the class's invariant; nothing owed. The target, the mask and the source are each read through two windows
    (the 32-row block and the 8-row peek), which hold the array at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 1 t) (iblk m c 2 t) (iblk m c 4 t) (iblk m c 5 t)
    | ⟨7, _⟩ => out0_7 (grid0.coords t) (iblk m c 0 t) (iblk m c 1 t) (iblk m c 2 t) (iblk m c 4 t) (iblk m c 5 t)
    | ⟨8, _⟩ => out0_8 (grid0.coords t) (iblk m c 0 t) (iblk m c 1 t) (iblk m c 2 t) (iblk m c 3 t) (iblk m c 4 t) (iblk m c 5 t)
    | ⟨9, _⟩ => out0_9 (iblk m c 1 t) (iblk m c 2 t)
    | ⟨10, _⟩ => out0_10 (grid0.coords t) (iblk m c 1 t) (iblk m c 2 t) (iblk m c 4 t) (iblk m c 5 t)
    | ⟨11, _⟩ => out0_11 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left | ⟨1, _⟩ => fullShare.left | ⟨2, _⟩ => fullShare.left
    | ⟨3, _⟩ => fullShare.right | ⟨4, _⟩ => fullShare.right | ⟨5, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 1 t) (iblk m c 2 t) (iblk m c 4 t) (iblk m c 5 t) := by dsimp only [dats]
theorem after0_7 (c : Dev nD) (t : Fin cfg0.N) : (dats m 0 c).after 7 t = out0_7 (grid0.coords t) (iblk m c 0 t) (iblk m c 1 t) (iblk m c 2 t) (iblk m c 4 t) (iblk m c 5 t) := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 1 t) (iblk m c 2 t) := by dsimp only [dats]
theorem after0_10 (c : Dev nD) (t : Fin cfg0.N) : (dats m 0 c).after 10 t = out0_10 (grid0.coords t) (iblk m c 1 t) (iblk m c 2 t) (iblk m c 4 t) (iblk m c 5 t) := by dsimp only [dats]
theorem after0_11 (c : Dev nD) (t : Fin cfg0.N) : (dats m 0 c).after 11 t = out0_11 (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KISplit.lean ====
/-
  The arrays of the idealized kernel's twelve windows at entry: nine buffers, the three arguments each shared by two windows.
-/
import proofs.«149716_j34935263986322_2_alg».proof.Proof.KIDat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, by share -/

theorem arrays_eq' (c : Dev nD) (Fw : (w : Fin cfg0.W) → Buf (Elt F) ((cfg0.win w).arr.view.loc (c.tc : Thread nD τ))) :
    ((dats m 0 c).arrays Fw : sProp 𝕄)
      = bigSep Finset.univ fun w : Fin 12 => (((c.tc : Thread nD τ).loc (Pipeline.arrRef spec0 w)) ↦{(dats m 0 c).share w} Fw w : sProp 𝕄) := by
  unfold Dat.arrays
  exact bigSep_congr fun w _ => by rw [(arr_whole0 w).set_eq_univ]

/-- The nine distinct arrays behind the twelve windows. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_v0_0 ∗ Φ main_v0_1 ∗ Φ main_v0_2 ∗ Φ main_v0_3 ∗ Φ main_v0_4 ∗ Φ main_v0_5) :=
  bigSep_eq_bigSepL_of_eq [main_arg0, main_arg1, main_arg2, main_v0_0, main_v0_1, main_v0_2, main_v0_3, main_v0_4, main_v0_5] (by decide) (by decide) Φ

/-- At entry: each of target, mask and source, held whole, is split between its two windows; each result array
    goes whole to its one window. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [bigSep_arrs]
  iintro ⟨A0, A1, A2, R0, R1, R2, R3, R4, R5⟩
  ihave H0 := (pointsTo_share (PosShare.mem_left_op_right fullShare)).1 $$ A0
  icases H0 with ⟨A0l, A0r⟩
  ihave H1 := (pointsTo_share (PosShare.mem_left_op_right fullShare)).1 $$ A1
  icases H1 with ⟨A1l, A1r⟩
  ihave H2 := (pointsTo_share (PosShare.mem_left_op_right fullShare)).1 $$ A2
  icases H2 with ⟨A2l, A2r⟩
  isplitl [A0l]; · iexact A0l
  isplitl [A1l]; · iexact A1l
  isplitl [A2l]; · iexact A2l
  isplitl [A0r]; · iexact A0r
  isplitl [A1r]; · iexact A1r
  isplitl [A2r]; · iexact A2r
  isplitl [R0]; · iexact R0
  isplitl [R1]; · iexact R1
  isplitl [R2]; · iexact R2
  isplitl [R3]; · iexact R3
  isplitl [R4]; · iexact R4
  iexact R5

end Cert.KernelIdeal.Hand

end
-- ==== Proof.KITail.lean ====
/-
  The idealized kernel's @main around its region: the host lines after it run from the region's exit contents.
-/
import proofs.«149716_j34935263986322_2_alg».proof.Proof.KISplit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main is the region followed by the six host lines that sum the loss partials and normalise the sum. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-! ## The lines after the region

  They read the loss partials' array and write five scalars and the loss; they touch none of the other arrays. -/

/-- The buffers the lines after the region touch. -/
def tailS : Finset (DevRef τ sig) :=
  [Proc.devRef (τ := τ) .tc main_v0_5, Proc.devRef .tc main_cst, Proc.devRef .tc main_v1, Proc.devRef .tc main_cst_0,
    Proc.devRef .tc main_v2, Proc.devRef .tc main_cst_1, Proc.devRef .tc main_v3].toFinset

theorem bigSep_tailS {M : Type} [URA M] (Φ : DevRef τ sig → sProp M) :
    bigSep tailS Φ = iprop(Φ (Proc.devRef .tc main_v0_5) ∗ Φ (Proc.devRef .tc main_cst) ∗ Φ (Proc.devRef .tc main_v1) ∗ Φ (Proc.devRef .tc main_cst_0)
      ∗ Φ (Proc.devRef .tc main_v2) ∗ Φ (Proc.devRef .tc main_cst_1) ∗ Φ (Proc.devRef .tc main_v3)) :=
  bigSep_eq_bigSepL_of_eq _ rfl (by decide) Φ

/-- The buffers' contents when the region is left: the loss partials' array at what the write-backs made it, every
    other buffer the lines touch as the region found it. -/
def Wx (c : Dev nD) : Valuation τ sig (Elt F) :=
  Function.update (V0 m c) (Proc.devRef .tc main_v0_5) ((dats m 0 c).arrAt 11 cfg0.N)

/-- And after the lines. -/
def Wt (c : Dev nD) : Valuation τ sig (Elt F) := StableHlo.after hostOps1 (Wx m c)

theorem Wx_partials (c : Dev nD) : Wx m c (Proc.devRef .tc main_v0_5) = (dats m 0 c).arrAt 11 cfg0.N := by
  unfold Wx; exact Function.update_self ..

theorem Wx_of_ne (c : Dev nD) (b : Ref sig .tc) (hb : b ≠ main_v0_5) : Wx m c (Proc.devRef .tc b) = V m c b := by
  unfold Wx; exact Function.update_of_ne (StableHlo.devRef_ne_of_ne hb) ..

/-- The lines do not write the loss partials' array. -/
theorem Wt_partials (c : Dev nD) : Wt m c (Proc.devRef .tc main_v0_5) = (dats m 0 c).arrAt 11 cfg0.N := by
  unfold Wt
  rw [StableHlo.after_of_forall_not_mem (b := Proc.devRef .tc main_v0_5) _ _ (List.forall_iff_forall_mem.mp (by
      simp only [hostOps1, List.Forall, StableHlo.nullary_writes, StableHlo.binary_writes, Finset.mem_singleton]
      repeat' apply And.intro
      all_goals exact StableHlo.devRef_ne_of_ne (by decide)))]
  exact Wx_partials m c

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl
  all_goals (first | rw [StableHlo.nullary_bufs] | rw [StableHlo.binary_bufs]); decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The six scalars the lines write, as the region finds them, and as the lines leave them. -/
def restAt (c : Dev nD) (Wv : Valuation τ sig (Elt F)) : sProp 𝕄 :=
  Pipeline.unscopedRest spec0 c (fun b => Wv (Proc.devRef .tc b))

theorem held_of (c : Dev nD) :
    iprop((((c.tc : Thread nD τ).loc (Pipeline.arrRef spec0 (11 : Fin 12))) ↦{(dats m 0 c).share 11} (dats m 0 c).arrAt 11 cfg0.N)
        ∗ Pipeline.unscopedRest spec0 c (V m c))
      ⊢ (StableHlo.held (c.tc : Thread nD τ) tailS (Wx m c) : sProp 𝕄) := by
  unfold StableHlo.held
  rw [bigSep_tailS, unscopedRest0_eq, Wx_partials, Wx_of_ne m c main_cst (by decide), Wx_of_ne m c main_v1 (by decide), Wx_of_ne m c main_cst_0 (by decide),
    Wx_of_ne m c main_v2 (by decide), Wx_of_ne m c main_cst_1 (by decide), Wx_of_ne m c main_v3 (by decide)]
  iintro ⟨H, Z1, Z2, Z3, Z4, Z5, Z6⟩
  isplitl [H]; · iexact H
  isplitl [Z1]; · iexact Z1
  isplitl [Z2]; · iexact Z2
  isplitl [Z3]; · iexact Z3
  isplitl [Z4]; · iexact Z4
  isplitl [Z5]; · iexact Z5
  iexact Z6

theorem of_held (c : Dev nD) :
    (StableHlo.held (c.tc : Thread nD τ) tailS (Wt m c) : sProp 𝕄)
      ⊢ iprop((((c.tc : Thread nD τ).loc (Pipeline.arrRef spec0 (11 : Fin 12))) ↦{(dats m 0 c).share 11} (dats m 0 c).arrAt 11 cfg0.N)
        ∗ restAt c (Wt m c)) := by
  unfold StableHlo.held restAt
  rw [bigSep_tailS, unscopedRest0_eq, Wt_partials]
  iintro ⟨H, Z1, Z2, Z3, Z4, Z5, Z6⟩
  isplitl [H]; · iexact H
  isplitl [Z1]; · iexact Z1
  isplitl [Z2]; · iexact Z2
  isplitl [Z3]; · iexact Z3
  isplitl [Z4]; · iexact Z4
  isplitl [Z5]; · iexact Z5
  iexact Z6

theorem arrays_take (c : Dev nD) (Fw : (w : Fin cfg0.W) → Buf (Elt F) ((cfg0.win w).arr.view.loc (c.tc : Thread nD τ))) :
    ((dats m 0 c).arrays Fw : sProp 𝕄)
      = iprop((((c.tc : Thread nD τ).loc (Pipeline.arrRef spec0 (11 : Fin 12))) ↦{(dats m 0 c).share 11} Fw 11)
          ∗ bigSep (Finset.univ.erase (11 : Fin 12)) fun w : Fin 12 => (((c.tc : Thread nD τ).loc (Pipeline.arrRef spec0 w)) ↦{(dats m 0 c).share w} Fw w : sProp 𝕄)) :=
  (arrays_eq' m c Fw).trans (bigSep_erase (Finset.mem_univ _))

set_option backward.isDefEq.respectTransparency.types false in
theorem htail (c : Dev nD) (Q' : PUnit → sProp 𝕄) :
    iprop((iprop((dats m 0 c).arrays ((dats m 0 c).arrAt · cfg0.N) ∗ restAt c (Wt m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [arrays_take]
  iintro ⟨Hk, Hb, ⟨H11, Hrem⟩, HZ⟩
  ihave Hh := (held_of m c) $$ [H11 HZ]
  · isplitl [H11]; · iexact H11
    iexact HZ
  iapply (Pipeline.wp_seqs_then (fun q => Cfg.toPCfg (Val := Elt F) (cfgs q)) (defs₀ (F := F)) Variants.none c tailS [] [hostOps1] tail_sub tail_fresh (Wx m c)) $$ [Hb Hh]
  · isplitl [Hb]; · iexact Hb
    iexact Hh
  iintro ⟨Hb, Hh⟩
  rw [Pipeline.chain_nil, wp_pure, show StableHlo.after ([hostOps1] : List (List (HloOp τ sig (Elt F)))).flatten (Wx m c) = Wt m c from by
    unfold Wt; simp only [List.flatten_cons, List.flatten_nil, List.append_nil]]
  imodintro
  iapply Hk
  ihave H2 := (of_held m c) $$ Hh
  icases H2 with ⟨H11, HZ⟩
  isplitr [HZ]
  · isplitl [H11]; · iexact H11
    iexact Hrem
  iexact HZ

end Cert.KernelIdeal.Hand

end
-- ==== Proof.KIRun.lean ====
/-
  The idealized kernel's run: every weakly fair execution of @main ends, with each window's array and the host lines'
  scalars at named contents.
-/
import proofs.«149716_j34935263986322_2_alg».proof.Proof.KITail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the run ends in: every window's array at what the pipeline's write-backs make of the proof data (an input's
    array as found), and each of the six scalars the lines after the region write at what they compute from the
    loss partials' array. -/
def RunPost (r : PUnit × MemSt nD τ sig (Elt F)) : Prop :=
  ∀ c : Dev nD, (∀ w : Fin cfg0.W, r.2.mem ((spec0 w).arr.view.loc (c.tc : Thread nD τ)) = (dats m 0 c).arrAt w cfg0.N)
    ∧ ∀ b ∈ Pipeline.restRefs sig spec0, r.2.mem ((c.tc : Thread nD τ).loc b) = Wt m c (Proc.devRef .tc b)

set_option backward.isDefEq.respectTransparency.types false in
set_option maxHeartbeats 1000000 in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => restAt c (Wt m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefs sig spec0, s.mem ((c.tc : Thread nD τ).loc b) = Wt m c (Proc.devRef .tc b))
    (hY := fun c s' => by
      iintro ⟨-, HU, HSI⟩
      unfold restAt Pipeline.unscopedRest
      imodintro
      iapply (pointsTo_read_all (Pipeline.restRefs sig spec0) (fun b => (c.tc : Thread nD τ).loc b) (fun b => Wt m c (Proc.devRef .tc b)) s')
      isplitl [HU] <;> iassumption)
    (hQ := fun s h c => ⟨(h c).1, (h c).2.2⟩)

end Cert.KernelIdeal.Hand

end
-- ==== Proof.KIFrame.lean ====
/-
  The idealized kernel's frame: it runs to the end and leaves its three argument arrays unchanged.
-/
import proofs.«149716_j34935263986322_2_alg».proof.Proof.KIRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

/-- Every weakly fair execution of @main ends, and the target, the mask and the source end as launched: an input
    window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans ((dats m 0 c).arrAt_in 0 rfl _), ((h c).1 1).trans ((dats m 0 c).arrAt_in 1 rfl _),
      ((h c).1 2).trans ((dats m 0 c).arrAt_in 2 rfl _)⟩) (run_main m ρ)

end Cert.KernelIdeal.Hand

end
-- ==== Proof.Spec.lean ====
/-
  The specification: each result of the weighted Poisson blend loss as ONE function of the target T, the mask M and
  the source S, all [4096, 4096] arrays of extended reals, index by index.

  With e = [S ≠ 0]·M the effective mask and sm = S·e the masked source, r⁺ = min (r+1) 4095 the next row (the last
  row its own successor) and r⁻ the row whose difference the last row repeats (r itself below 4095, 4094 at 4095):
    gsx(r,c) = sm(r,c⁺) − sm(r,c),   gsy(r,c) = sm(r⁺,c) − sm(r,c),
    gmx(r,c) = e(r,c⁺) − e(r,c⁻),    gmy(r,c) = e(r⁺,c) − e(r⁻,c),
    gbx(r,c) = 0 where gmx ≠ 0 or gmy ≠ 0, else T(r,c⁺) − T(r,c);  gby likewise along rows,
    wx = e·exp(−5·|gsx / (sm + ε)|),  wy = e·exp(−5·|gsy / (sm + ε)|),
    weight = [wx | wy | 0] side by side,
    loss = mean((wx·gbx − wx·gsx)²) + mean((wy·gby − wy·gsy)²).
  The last theorem is the one law that joins the two programs' losses: a sum of squares grouped by 32-row blocks,
  each block's total repeated 1024 times, summed and divided by 1024 and then by 4096², is the sum of the two means.
  Squares are non-negative on the extended reals, and among non-negative extended reals multiplication distributes
  over addition, so no finiteness is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Sq : Shape := ⟨2, ![4096, 4096]⟩
abbrev Wide : Shape := ⟨2, ![4096, 12288]⟩
abbrev Arr := Sq.Idx → EReal

/-- The next row or column, the last its own successor. -/
def up (k : Fin 4096) : Fin 4096 := ⟨min (k.val + 1) 4095, by omega⟩
/-- The row or column itself, but 4094 at 4095. -/
def dn (k : Fin 4096) : Fin 4096 := ⟨if k.val < 4095 then k.val else 4094, by split <;> omega⟩

/-- Row `p` of the 32-row block `t`. -/
def row (t : Fin 128) (p : Fin 32) : Fin 4096 := ⟨32 * t.val + p.val, by omega⟩
/-- The first row of the 8-row block that follows block `t` (clamped to the last 8-row block). -/
def peekRow (t : Fin 128) : Fin 4096 := ⟨min (32 * (t.val + 1)) 4088, by omega⟩

abbrev zero : EReal := Ideal.ofBits .f32 0x00000000#32
abbrev eps : EReal := Ideal.ofBits .f32 0x3727C5AC#32
abbrev minus5 : EReal := Ideal.ofBits .f32 0xC0A00000#32

/-- [x ≠ 0] as 0 or 1: the comparison's bit widened to a word and read as an integer. -/
def ne0 (x : EReal) : EReal := ((((Ideal.cmp .one x zero).setWidth 32).toInt : ℝ) : EReal)

section
variable (T M S : Arr)

def e (r c : Fin 4096) : EReal := ne0 (S (ix2 r c)) * M (ix2 r c)
def sm (r c : Fin 4096) : EReal := S (ix2 r c) * e M S r c
def gsx (r c : Fin 4096) : EReal := sm M S r (up c) - sm M S r c
def gsy (r c : Fin 4096) : EReal := sm M S (up r) c - sm M S r c
def gmx (r c : Fin 4096) : EReal := e M S r (up c) - e M S r (dn c)
def gmy (r c : Fin 4096) : EReal := e M S (up r) c - e M S (dn r) c
/-- The mask has an edge at (r,c) in either direction, as a bit. -/
def edge (r c : Fin 4096) : BitVec 1 := IntOp.ori (Ideal.cmp .one (gmx M S r c) zero) (Ideal.cmp .one (gmy M S r c) zero)
def gbx (r c : Fin 4096) : EReal := Scalar.select (edge M S r c) zero (T (ix2 r (up c)) - T (ix2 r c))
def gby (r c : Fin 4096) : EReal := Scalar.select (edge M S r c) zero (T (ix2 (up r) c) - T (ix2 r c))
def den (r c : Fin 4096) : EReal := sm M S r c + eps
def wx (r c : Fin 4096) : EReal :=
  e M S r c * Ideal.exp (minus5 * FloatOps.absf (F := Ideal) (φ := .f32) (Ideal.div (gsx M S r c) (den M S r c)))
def wy (r c : Fin 4096) : EReal :=
  e M S r c * Ideal.exp (minus5 * FloatOps.absf (F := Ideal) (φ := .f32) (Ideal.div (gsy M S r c) (den M S r c)))
def sqx (r c : Fin 4096) : EReal :=
  (wx M S r c * gbx T M S r c - wx M S r c * gsx M S r c) * (wx M S r c * gbx T M S r c - wx M S r c * gsx M S r c)
def sqy (r c : Fin 4096) : EReal :=
  (wy M S r c * gby T M S r c - wy M S r c * gsy M S r c) * (wy M S r c * gby T M S r c - wy M S r c * gsy M S r c)

/-! ### The results as arrays -/

def GBX : Arr := fun j => gbx T M S (j 0) (j 1)
def GBY : Arr := fun j => gby T M S (j 0) (j 1)
def GSX : Arr := fun j => gsx M S (j 0) (j 1)
def GSY : Arr := fun j => gsy M S (j 0) (j 1)
/-- The weights side by side, then zeros. -/
def WEIGHT : Wide.Idx → EReal := fun j =>
  if h : (j 1).val < 4096 then wx M S (j 0) ⟨(j 1).val, h⟩
  else if h2 : (j 1).val < 8192 then wy M S (j 0) ⟨(j 1).val - 4096, by omega⟩
  else zero

/-- The loss as the reference takes it: the two means added. -/
def lossRef : EReal :=
  Ideal.div (zero + ∑ r : Fin 4096, ∑ c : Fin 4096, sqx T M S r c) (Ideal.ofBits .f32 0x4B800000#32)
    + Ideal.div (zero + ∑ r : Fin 4096, ∑ c : Fin 4096, sqy T M S r c) (Ideal.ofBits .f32 0x4B800000#32)

/-- The total of one 32-row block: row by row, the row's two sums added. -/
def blockTotal (b : Fin 128) : EReal :=
  ∑ k : Fin 32, ((∑ c : Fin 4096, sqx T M S (row b k) c) + (∑ c : Fin 4096, sqy T M S (row b k) c))

/-- The loss partials' array [1024, 128]: rows 8b … 8b+7 all hold block b's total. -/
def PART : (⟨2, ![1024, 128]⟩ : Shape).Idx → EReal := fun j => blockTotal T M S ⟨(j 0).val / 8, by have h : (j 0).val < 1024 := (j 0).isLt; omega⟩

/-- The loss as the kernel's program takes it: the partials summed, divided by 1024 and by 4096². -/
def lossKer : EReal :=
  Ideal.div (Ideal.div (zero + ∑ u : Fin 1024, ∑ _l : Fin 128, blockTotal T M S ⟨u.val / 8, by omega⟩) (Ideal.ofBits .f32 0x44800000#32))
    (Ideal.ofBits .f32 0x4B800000#32)

end

end Cert.Spec

end
-- ==== Proof.KIBlocks.lean ====
/-
  The idealized kernel's blocks, located: at grid point t the three 32-row input windows read rows 32t … 32t+31 of the
  target, the mask and the source, the three 8-row windows start at row min(32(t+1), 4088), each output window's block
  is rows 32t … 32t+31 (8t … 8t+7 for the loss partials) of its array, the output blocks together cover their arrays,
  and the host lines after the region leave the loss at the partials' total divided by 1024 and by 4096².
-/
import proofs.«149716_j34935263986322_2_alg».proof.Proof.KIRun
import proofs.«149716_j34935263986322_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.Spec (row peekRow)

variable (m : (ℓ : Loc nD τ sig) → Buf (Elt Ideal) ℓ) (ρ : Dev nD → PrngReg)

/-- The target, the mask and the source as the region finds them. -/
abbrev T (c : Dev nD) : Cert.Spec.Arr := V m c main_arg0
abbrev M (c : Dev nD) : Cert.Spec.Arr := V m c main_arg1
abbrev S (c : Dev nD) : Cert.Spec.Arr := V m c main_arg2

theorem hz : (![0, 0] : Fin 2 → Nat) = fun _ => 0 := funext fun a => by fin_cases a <;> rfl

/-- A grid point as a block number. -/
def blkNo (t : Fin cfg0.N) : Fin 128 := ⟨t.val, lt_of_lt_of_eq t.isLt N_0⟩

/-- The grid has one axis: a point's coordinate is its number. -/
theorem coords_val : ∀ t : Fin cfg0.N, (grid0.coords t 0).val = t.val :=
  (by decide +kernel : ∀ t : Fin grid0.N, (grid0.coords t 0).val = t.val)

/-- The printed index maps over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = min (4 * (t.val + 1)) 511 ∧ win0_3.index t (1 : Fin 2) = 0
    ∧ win0_4.index t (0 : Fin 2) = min (4 * (t.val + 1)) 511 ∧ win0_4.index t (1 : Fin 2) = 0
    ∧ win0_5.index t (0 : Fin 2) = min (4 * (t.val + 1)) 511 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! ## The input blocks read off the arrays -/

theorem blk0 (c : Dev nD) (t : Fin cfg0.N) (p : Fin 32) (q : Fin 4096) :
    iblk m c 0 t (ix2 p q) = V m c main_arg0 (ix2 (row (blkNo t) p) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg0 (((cfg0.win 0).blk t).view.emb (ix2 p q)) = V m c main_arg0 (ix2 (row (blkNo t) p) q)
  congr 1
  funext a; apply Fin.ext
  match a with
  | ⟨0, _⟩ => show win0_0.index t (0 : Fin 2) * 32 + 1 * p.val = 32 * t.val + p.val; omega
  | ⟨1, _⟩ => show win0_0.index t (1 : Fin 2) * 4096 + 1 * q.val = q.val; omega

theorem blk1 (c : Dev nD) (t : Fin cfg0.N) (p : Fin 32) (q : Fin 4096) :
    iblk m c 1 t (ix2 p q) = V m c main_arg1 (ix2 (row (blkNo t) p) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg1 (((cfg0.win 1).blk t).view.emb (ix2 p q)) = V m c main_arg1 (ix2 (row (blkNo t) p) q)
  congr 1
  funext a; apply Fin.ext
  match a with
  | ⟨0, _⟩ => show win0_1.index t (0 : Fin 2) * 32 + 1 * p.val = 32 * t.val + p.val; omega
  | ⟨1, _⟩ => show win0_1.index t (1 : Fin 2) * 4096 + 1 * q.val = q.val; omega

theorem blk2 (c : Dev nD) (t : Fin cfg0.N) (p : Fin 32) (q : Fin 4096) :
    iblk m c 2 t (ix2 p q) = V m c main_arg2 (ix2 (row (blkNo t) p) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg2 (((cfg0.win 2).blk t).view.emb (ix2 p q)) = V m c main_arg2 (ix2 (row (blkNo t) p) q)
  congr 1
  funext a; apply Fin.ext
  match a with
  | ⟨0, _⟩ => show win0_2.index t (0 : Fin 2) * 32 + 1 * p.val = 32 * t.val + p.val; omega
  | ⟨1, _⟩ => show win0_2.index t (1 : Fin 2) * 4096 + 1 * q.val = q.val; omega

theorem blk3 (c : Dev nD) (t : Fin cfg0.N) (q : Fin 4096) :
    iblk m c 3 t (ix2 (0 : Fin 8) q) = V m c main_arg0 (ix2 (peekRow (blkNo t)) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg0 (((cfg0.win 3).blk t).view.emb (ix2 (0 : Fin 8) q)) = V m c main_arg0 (ix2 (peekRow (blkNo t)) q)
  congr 1
  funext a; apply Fin.ext
  match a with
  | ⟨0, _⟩ => show win0_3.index t (0 : Fin 2) * 8 + 1 * 0 = min (32 * (t.val + 1)) 4088; omega
  | ⟨1, _⟩ => show win0_3.index t (1 : Fin 2) * 4096 + 1 * q.val = q.val; omega

theorem blk4 (c : Dev nD) (t : Fin cfg0.N) (q : Fin 4096) :
    iblk m c 4 t (ix2 (0 : Fin 8) q) = V m c main_arg1 (ix2 (peekRow (blkNo t)) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg1 (((cfg0.win 4).blk t).view.emb (ix2 (0 : Fin 8) q)) = V m c main_arg1 (ix2 (peekRow (blkNo t)) q)
  congr 1
  funext a; apply Fin.ext
  match a with
  | ⟨0, _⟩ => show win0_4.index t (0 : Fin 2) * 8 + 1 * 0 = min (32 * (t.val + 1)) 4088; omega
  | ⟨1, _⟩ => show win0_4.index t (1 : Fin 2) * 4096 + 1 * q.val = q.val; omega

theorem blk5 (c : Dev nD) (t : Fin cfg0.N) (q : Fin 4096) :
    iblk m c 5 t (ix2 (0 : Fin 8) q) = V m c main_arg2 (ix2 (peekRow (blkNo t)) q) := by
  obtain ⟨e0r, e0c, e1r, e1c, e2r, e2c, e3r, e3c, e4r, e4c, e5r, e5c, e6r, e6c, e7r, e7c, e8r, e8c, e9r, e9c, e10r, e10c, e11r, e11c⟩ := idx_facts t
  show V m c main_arg2 (((cfg0.win 5).blk t).view.emb (ix2 (0 : Fin 8) q)) = V m c main_arg2 (ix2 (peekRow (blkNo t)) q)
  congr 1
  funext a; apply Fin.ext
  match a with
  | ⟨0, _⟩ => show win0_5.index t (0 : Fin 2) * 8 + 1 * 0 = min (32 * (t.val + 1)) 4088; omega
  | ⟨1, _⟩ => show win0_5.index t (1 : Fin 2) * 4096 + 1 * q.val = q.val; omega

/-! ## The output blocks cover their arrays -/

theorem mem_blk6 (t : Fin cfg0.N) (i : S4096x12288.Idx) :
    i ∈ ((cfg0.win 6).blk t).view.set ↔ ∀ a : Fin 2, win0_6.index t a * S32x12288.size a ≤ (i a).val ∧ (i a).val < win0_6.index t a * S32x12288.size a + S32x12288.size a := by
  show i ∈ ((View.whole main_v0_0).slice (win0_6.rect t)).set ↔ _
  rw [View.set_slice_whole, Rect.mem_set_unit]
  exact Iff.rfl

theorem cover6 (i : S4096x12288.Idx) : ∃ t : Fin cfg0.N, (cfg0.win 6).flush t = true ∧ i ∈ ((cfg0.win 6).blk t).view.set := by
  have hi0 : (i 0).val < 4096 := (i 0).isLt
  have hi1 : (i 1).val < 12288 := (i 1).isLt
  let t : Fin cfg0.N := ⟨(i 0).val / 32, lt_of_lt_of_eq (by omega) N_0.symm⟩
  have ht : t.val = (i 0).val / 32 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_6 t, ?_⟩
  rw [mem_blk6]
  intro a
  match a with
  | ⟨0, _⟩ => show win0_6.index t (0 : Fin 2) * 32 ≤ (i 0).val ∧ (i 0).val < win0_6.index t (0 : Fin 2) * 32 + 32; omega
  | ⟨1, _⟩ => show win0_6.index t (1 : Fin 2) * 12288 ≤ (i 1).val ∧ (i 1).val < win0_6.index t (1 : Fin 2) * 12288 + 12288; omega

theorem mem_blk7 (t : Fin cfg0.N) (i : S4096x4096.Idx) :
    i ∈ ((cfg0.win 7).blk t).view.set ↔ ∀ a : Fin 2, win0_7.index t a * S32x4096.size a ≤ (i a).val ∧ (i a).val < win0_7.index t a * S32x4096.size a + S32x4096.size a := by
  show i ∈ ((View.whole main_v0_1).slice (win0_7.rect t)).set ↔ _
  rw [View.set_slice_whole, Rect.mem_set_unit]
  exact Iff.rfl

theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  let t : Fin cfg0.N := ⟨(i 0).val / 32, lt_of_lt_of_eq (by omega) N_0.symm⟩
  have ht : t.val = (i 0).val / 32 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_7 t, ?_⟩
  rw [mem_blk7]
  intro a
  match a with
  | ⟨0, _⟩ => show win0_7.index t (0 : Fin 2) * 32 ≤ (i 0).val ∧ (i 0).val < win0_7.index t (0 : Fin 2) * 32 + 32; omega
  | ⟨1, _⟩ => show win0_7.index t (1 : Fin 2) * 4096 ≤ (i 1).val ∧ (i 1).val < win0_7.index t (1 : Fin 2) * 4096 + 4096; omega

theorem mem_blk8 (t : Fin cfg0.N) (i : S4096x4096.Idx) :
    i ∈ ((cfg0.win 8).blk t).view.set ↔ ∀ a : Fin 2, win0_8.index t a * S32x4096.size a ≤ (i a).val ∧ (i a).val < win0_8.index t a * S32x4096.size a + S32x4096.size a := by
  show i ∈ ((View.whole main_v0_2).slice (win0_8.rect t)).set ↔ _
  rw [View.set_slice_whole, Rect.mem_set_unit]
  exact Iff.rfl

theorem cover8 (i : S4096x4096.Idx) : ∃ t : Fin cfg0.N, (cfg0.win 8).flush t = true ∧ i ∈ ((cfg0.win 8).blk t).view.set := by
  have hi0 : (i 0).val < 4096 := (i 0).isLt
  have hi1 : (i 1).val < 4096 := (i 1).isLt
  let t : Fin cfg0.N := ⟨(i 0).val / 32, lt_of_lt_of_eq (by omega) N_0.symm⟩
  have ht : t.val = (i 0).val / 32 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_8 t, ?_⟩
  rw [mem_blk8]
  intro a
  match a with
  | ⟨0, _⟩ => show win0_8.index t (0 : Fin 2) * 32 ≤ (i 0).val ∧ (i 0).val < win0_8.index t (0 : Fin 2) * 32 + 32; omega
  | ⟨1, _⟩ => show win0_8.index t (1 : Fin 2) * 4096 ≤ (i 1).val ∧ (i 1).val < win0_8.index t (1 : Fin 2) * 4096 + 4096; omega

theorem mem_blk9 (t : Fin cfg0.N) (i : S4096x4096.Idx) :
    i ∈ ((cfg0.win 9).blk t).view.set ↔ ∀ a : Fin 2, win0_9.index t a * S32x4096.size a ≤ (i a).val ∧ (i a).val < win0_9.index t a * S32x4096.size a + S32x4096.size a := by
  show i ∈ ((View.whole main_v0_3).slice (win0_9.rect t)).set ↔ _
  rw [View.set_slice_whole, Rect.mem_set_unit]
  exact Iff.rfl

theorem cover9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  let t : Fin cfg0.N := ⟨(i 0).val / 32, lt_of_lt_of_eq (by omega) N_0.symm⟩
  have ht : t.val = (i 0).val / 32 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_9 t, ?_⟩
  rw [mem_blk9]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 4096 ≤ (i 1).val ∧ (i 1).val < win0_9.index t (1 : Fin 2) * 4096 + 4096; omega

theorem mem_blk10 (t : Fin cfg0.N) (i : S4096x4096.Idx) :
    i ∈ ((cfg0.win 10).blk t).view.set ↔ ∀ a : Fin 2, win0_10.index t a * S32x4096.size a ≤ (i a).val ∧ (i a).val < win0_10.index t a * S32x4096.size a + S32x4096.size a := by
  show i ∈ ((View.whole main_v0_4).slice (win0_10.rect t)).set ↔ _
  rw [View.set_slice_whole, Rect.mem_set_unit]
  exact Iff.rfl

theorem cover10 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  let t : Fin cfg0.N := ⟨(i 0).val / 32, lt_of_lt_of_eq (by omega) N_0.symm⟩
  have ht : t.val = (i 0).val / 32 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_10 t, ?_⟩
  rw [mem_blk10]
  intro a
  match a with
  | ⟨0, _⟩ => show win0_10.index t (0 : Fin 2) * 32 ≤ (i 0).val ∧ (i 0).val < win0_10.index t (0 : Fin 2) * 32 + 32; omega
  | ⟨1, _⟩ => show win0_10.index t (1 : Fin 2) * 4096 ≤ (i 1).val ∧ (i 1).val < win0_10.index t (1 : Fin 2) * 4096 + 4096; omega

theorem mem_blk11 (t : Fin cfg0.N) (i : S1024x128.Idx) :
    i ∈ ((cfg0.win 11).blk t).view.set ↔ ∀ a : Fin 2, win0_11.index t a * S8x128.size a ≤ (i a).val ∧ (i a).val < win0_11.index t a * S8x128.size a + S8x128.size a := by
  show i ∈ ((View.whole main_v0_5).slice (win0_11.rect t)).set ↔ _
  rw [View.set_slice_whole, Rect.mem_set_unit]
  exact Iff.rfl

theorem cover11 (i : S1024x128.Idx) : ∃ t : Fin cfg0.N, (cfg0.win 11).flush t = true ∧ i ∈ ((cfg0.win 11).blk t).view.set := by
  have hi0 : (i 0).val < 1024 := (i 0).isLt
  have hi1 : (i 1).val < 128 := (i 1).isLt
  let t : Fin cfg0.N := ⟨(i 0).val / 8, lt_of_lt_of_eq (by omega) N_0.symm⟩
  have ht : t.val = (i 0).val / 8 := rfl
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush0_11 t, ?_⟩
  rw [mem_blk11]
  intro a
  match a with
  | ⟨0, _⟩ => show win0_11.index t (0 : Fin 2) * 8 ≤ (i 0).val ∧ (i 0).val < win0_11.index t (0 : Fin 2) * 8 + 8; omega
  | ⟨1, _⟩ => show win0_11.index t (1 : Fin 2) * 128 ≤ (i 1).val ∧ (i 1).val < win0_11.index t (1 : Fin 2) * 128 + 128; omega

end Cert.KernelIdeal.KValue

end
-- ==== Proof.KIPay.lean ====
/-
  The idealized kernel body's values read at an index: every named value of the body, at row p and column q of the
  32-row block t, is the specification's function of the whole arrays at row 32t+p and column q.

  The pointwise values (the effective mask, the masked source, the weights) read the blocks at the same position.
  A column shift (all columns but the first, then the last column again; or all but the last, then column 4094)
  reads column min (q+1) 4095, or column q below 4095 and 4094 at 4095. A row shift (rows 1 … 31 of the block, then
  ONE more row: the block's own last row at the last block, else the first row of the 8-row block that follows) reads
  row min (r+1) 4095 of the array, because 32t+31+1 = 32(t+1) is the first row of that following block.
  The block's loss partial is a sum over the 4096 columns of each row, the two sums added, summed over the 32 rows.
-/
import proofs.«149716_j34935263986322_2_alg».proof.Proof.KIVals
import proofs.«149716_j34935263986322_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.PayValue

open Idealize.ShloMosaic Idealize.ShloMosaic.ValueIdx
open Cert.KernelIdeal Cert.KernelIdeal.Gen
open Cert.Spec (row peekRow up dn)

/-! ## Shifts of a 32-row block read at an index -/

section Shifts
variable {α : Type}

/-- All columns but the first, then the last column again: column min (q+1) 4095. -/
theorem colUp_apply (v : S32x4096.Idx → α) (h1 : S32x4096.Slices ![0, 1] S32x4095) (h2 : S32x4096.Slices ![0, 4095] S32x1)
    (hc : Shape.Concatenates [S32x4095, S32x1] S32x4096 1) (p : Fin 32) (q : Fin 4096) :
    concatenate S32x4096 1 [⟨S32x4095, extractStridedSlice S32x4095 ![0, 1] v h1⟩, ⟨S32x1, extractStridedSlice S32x1 ![0, 4095] v h2⟩] hc (ix2 p q)
      = v (ix2 p (up q)) := by
  by_cases hq : q.val < 4095
  · refine (concatenate_pair_apply_left 1 _ _ hc (ix2 p q) rfl (ix2 p ⟨q.val, hq⟩) (fun b => by
      match b with
      | ⟨0, _⟩ => rfl
      | ⟨1, _⟩ => rfl)).trans ?_
    exact extractStridedSlice_apply _ v h1 _ _ (fun a => by
      match a with
      | ⟨0, _⟩ => show p.val = 0 + p.val; omega
      | ⟨1, _⟩ => show min (q.val + 1) 4095 = 1 + q.val; omega)
  · refine (concatenate_pair_apply_right 1 _ _ hc (ix2 p q) rfl rfl (ix2 p (0 : Fin 1)) (fun b hb => by
      match b with
      | ⟨0, _⟩ => rfl
      | ⟨1, _⟩ => exact absurd rfl hb) (by show 0 + 4095 = q.val; have := q.isLt; omega)).trans ?_
    exact extractStridedSlice_apply _ v h2 _ _ (fun a => by
      match a with
      | ⟨0, _⟩ => show p.val = 0 + p.val; omega
      | ⟨1, _⟩ => show min (q.val + 1) 4095 = 4095 + 0; have := q.isLt; omega)

/-- All columns but the last, then column 4094: column q below 4095, column 4094 at 4095. -/
theorem colDn_apply (v : S32x4096.Idx → α) (h1 : S32x4096.Slices ![0, 0] S32x4095) (h2 : S32x4096.Slices ![0, 4094] S32x1)
    (hc : Shape.Concatenates [S32x4095, S32x1] S32x4096 1) (p : Fin 32) (q : Fin 4096) :
    concatenate S32x4096 1 [⟨S32x4095, extractStridedSlice S32x4095 ![0, 0] v h1⟩, ⟨S32x1, extractStridedSlice S32x1 ![0, 4094] v h2⟩] hc (ix2 p q)
      = v (ix2 p (dn q)) := by
  by_cases hq : q.val < 4095
  · refine (concatenate_pair_apply_left 1 _ _ hc (ix2 p q) rfl (ix2 p ⟨q.val, hq⟩) (fun b => by
      match b with
      | ⟨0, _⟩ => rfl
      | ⟨1, _⟩ => rfl)).trans ?_
    exact extractStridedSlice_apply _ v h1 _ _ (fun a => by
      match a with
      | ⟨0, _⟩ => show p.val = 0 + p.val; omega
      | ⟨1, _⟩ => show (if q.val < 4095 then q.val else 4094) = 0 + q.val; rw [if_pos hq]; omega)
  · refine (concatenate_pair_apply_right 1 _ _ hc (ix2 p q) rfl rfl (ix2 p (0 : Fin 1)) (fun b hb => by
      match b with
      | ⟨0, _⟩ => rfl
      | ⟨1, _⟩ => exact absurd rfl hb) (by show 0 + 4095 = q.val; have := q.isLt; omega)).trans ?_
    exact extractStridedSlice_apply _ v h2 _ _ (fun a => by
      match a with
      | ⟨0, _⟩ => show p.val = 0 + p.val; omega
      | ⟨1, _⟩ => show (if q.val < 4095 then q.val else 4094) = 4094 + 0; rw [if_neg hq])

/-- Rows 1 … 31, then one more row `w`: below row 31 the next row of the block … -/
theorem rowUp_apply_lt (v : S32x4096.Idx → α) (w : S1x4096.Idx → α) (h1 : S32x4096.Slices ![1, 0] S31x4096)
    (hc : Shape.Concatenates [S31x4096, S1x4096] S32x4096 0) (p : Fin 32) (q : Fin 4096) (hp : p.val < 31) :
    concatenate S32x4096 0 [⟨S31x4096, extractStridedSlice S31x4096 ![1, 0] v h1⟩, ⟨S1x4096, w⟩] hc (ix2 p q)
      = v (ix2 (⟨p.val + 1, by omega⟩ : Fin 32) q) := by
  refine (concatenate_pair_apply_left 0 _ _ hc (ix2 p q) rfl (ix2 (⟨p.val, hp⟩ : Fin 31) q) (fun b => by
    match b with
    | ⟨0, _⟩ => rfl
    | ⟨1, _⟩ => rfl)).trans ?_
  exact extractStridedSlice_apply _ v h1 _ _ (fun a => by
    match a with
    | ⟨0, _⟩ => show p.val + 1 = 1 + p.val; omega
    | ⟨1, _⟩ => show q.val = 0 + q.val; omega)

/-- … and at row 31 the appended row. -/
theorem rowUp_apply_last (v : S32x4096.Idx → α) (w : S1x4096.Idx → α) (h1 : S32x4096.Slices ![1, 0] S31x4096)
    (hc : Shape.Concatenates [S31x4096, S1x4096] S32x4096 0) (p : Fin 32) (q : Fin 4096) (hp : ¬ p.val < 31) :
    concatenate S32x4096 0 [⟨S31x4096, extractStridedSlice S31x4096 ![1, 0] v h1⟩, ⟨S1x4096, w⟩] hc (ix2 p q)
      = w (ix2 (0 : Fin 1) q) :=
  concatenate_pair_apply_right 0 _ _ hc (ix2 p q) rfl rfl (ix2 (0 : Fin 1) q) (fun b hb => by
    match b with
    | ⟨0, _⟩ => exact absurd rfl hb
    | ⟨1, _⟩ => rfl) (by show 0 + 31 = p.val; have := p.isLt; omega)

/-- Rows 0 … 30, then row 30 again: row p below 31, row 30 at 31. -/
theorem rowDn_apply (v : S32x4096.Idx → α) (h1 : S32x4096.Slices ![0, 0] S31x4096) (h2 : S32x4096.Slices ![30, 0] S1x4096)
    (hc : Shape.Concatenates [S31x4096, S1x4096] S32x4096 0) (p : Fin 32) (q : Fin 4096) :
    concatenate S32x4096 0 [⟨S31x4096, extractStridedSlice S31x4096 ![0, 0] v h1⟩, ⟨S1x4096, extractStridedSlice S1x4096 ![30, 0] v h2⟩] hc (ix2 p q)
      = v (ix2 (⟨if p.val < 31 then p.val else 30, by split <;> omega⟩ : Fin 32) q) := by
  by_cases hp : p.val < 31
  · refine (concatenate_pair_apply_left 0 _ _ hc (ix2 p q) rfl (ix2 (⟨p.val, hp⟩ : Fin 31) q) (fun b => by
      match b with
      | ⟨0, _⟩ => rfl
      | ⟨1, _⟩ => rfl)).trans ?_
    exact extractStridedSlice_apply _ v h1 _ _ (fun a => by
      match a with
      | ⟨0, _⟩ => show (if p.val < 31 then p.val else 30) = 0 + p.val; rw [if_pos hp]; omega
      | ⟨1, _⟩ => show q.val = 0 + q.val; omega)
  · refine (concatenate_pair_apply_right 0 _ _ hc (ix2 p q) rfl rfl (ix2 (0 : Fin 1) q) (fun b hb => by
      match b with
      | ⟨0, _⟩ => exact absurd rfl hb
      | ⟨1, _⟩ => rfl) (by show 0 + 31 = p.val; have := p.isLt; omega)).trans ?_
    exact extractStridedSlice_apply _ v h2 _ _ (fun a => by
      match a with
      | ⟨0, _⟩ => show (if p.val < 31 then p.val else 30) = 30 + 0; rw [if_neg hp]
      | ⟨1, _⟩ => show q.val = 0 + q.val; omega)

/-- A select between two whole vectors on one bit, read at an index. -/
theorem scalarSelect_apply {ι : Type} (c : BitVec 1) (a b : ι → α) (j : ι) :
    (Scalar.select c a b) j = Scalar.select c (a j) (b j) := by
  unfold Scalar.select; split <;> rfl

/-- The first row of a block, and row 31 of a 32-row block, as one-row slices. -/
theorem row31_apply (v : S32x4096.Idx → α) (h : S32x4096.Slices ![31, 0] S1x4096) (q : Fin 4096) :
    extractStridedSlice S1x4096 ![31, 0] v h (ix2 (0 : Fin 1) q) = v (ix2 (31 : Fin 32) q) :=
  extractStridedSlice_apply _ v h _ _ (fun a => by
    match a with
    | ⟨0, _⟩ => rfl
    | ⟨1, _⟩ => show q.val = 0 + q.val; omega)
theorem peek0_apply (x : S8x4096.Idx → α) (h : S8x4096.Slices ![0, 0] S1x4096) (q : Fin 4096) :
    extractStridedSlice S1x4096 ![0, 0] x h (ix2 (0 : Fin 1) q) = x (ix2 (0 : Fin 8) q) :=
  extractStridedSlice_apply _ x h _ _ (fun a => by
    match a with
    | ⟨0, _⟩ => rfl
    | ⟨1, _⟩ => show q.val = 0 + q.val; omega)

/-- "This is the last block", as a bit: 1 exactly at block 127. -/
theorem lastBit (n : Nat) (hn : n < 128) : Scalar.cmpi .eq (BitVec.ofNat 32 n) 127#32 = if n = 127 then 1#1 else 0#1 := by
  unfold Scalar.cmpi IntOp.cmpi
  by_cases h : n = 127
  · subst h; rfl
  · rw [if_neg h]
    have e : (BitVec.ofNat 32 n == 127#32) = false := by
      rw [beq_eq_false_iff_ne]
      intro e
      have := congrArg BitVec.toNat e
      simp at this
      omega
    simp [e]

end Shifts

/-! ## The loads are the blocks -/

theorem hz2 : (![0, 0] : Fin 2 → Nat) = fun _ => 0 := funext fun a => by fin_cases a <;> rfl

theorem ldA (x : Vec Ideal S32x4096 .f32) : View.ld x Hand.rA = x := View.ld_unit_zero (S := S32x4096) hz2 _ x
theorem ldB (x : Vec Ideal S8x4096 .f32) : View.ld x Hand.rB = x := View.ld_unit_zero (S := S8x4096) hz2 _ x

/-! ## The payloads at an index, over any vectors -/

/-- The effective mask: [s ≠ 0]·m. -/
theorem pay4_apply (v2 v3 : Vec Ideal S32x4096 .f32) (j : S32x4096.Idx) :
    k0_pay4 (F := Ideal) v2 v3 j = Cert.Spec.ne0 (v3 j) * v2 j := rfl
/-- The masked source: s·([s ≠ 0]·m). -/
theorem pay5_apply (v2 v3 : Vec Ideal S32x4096 .f32) (j : S32x4096.Idx) :
    k0_pay5 (F := Ideal) v2 v3 j = v3 j * (Cert.Spec.ne0 (v3 j) * v2 j) := rfl
/-- The denominator: the masked source plus ε. -/
theorem pay15_apply (v : FVec Ideal S32x4096 .f32) (j : S32x4096.Idx) :
    k0_pay15 (F := Ideal) v j = v j + Cert.Spec.eps := rfl
/-- The forward difference along columns. -/
theorem pay11_apply (v : FVec Ideal S32x4096 .f32) (p : Fin 32) (q : Fin 4096) :
    k0_pay11 (F := Ideal) v (ix2 p q) = v (ix2 p (up q)) - v (ix2 p q) := by
  unfold k0_pay11
  exact congrArg (fun z => z - v (ix2 p q)) (colUp_apply v _ _ _ p q)
/-- The shifted target along columns. -/
theorem pay10_apply (v : Vec Ideal S32x4096 .f32) (p : Fin 32) (q : Fin 4096) :
    k0_pay10 (F := Ideal) v (ix2 p q) = v (ix2 p (up q)) := by
  unfold k0_pay10
  exact colUp_apply v _ _ _ p q
/-- The column weight: e·exp(−5·|d / (sm + ε)|) with d the column difference of sm. -/
theorem pay16_apply (v26 v27 : FVec Ideal S32x4096 .f32) (j : S32x4096.Idx) :
    k0_pay16 (F := Ideal) v26 v27 j
      = v26 j * Ideal.exp (Cert.Spec.minus5 * FloatOps.absf (F := Ideal) (φ := .f32) (Ideal.div (k0_pay11 (F := Ideal) v27 j) (v27 j + Cert.Spec.eps))) := rfl
/-- The row weight, likewise over the row difference `v35`. -/
theorem pay17_apply (v26 v27 v35 : FVec Ideal S32x4096 .f32) (j : S32x4096.Idx) :
    k0_pay17 (F := Ideal) v26 v27 v35 j
      = v26 j * Ideal.exp (Cert.Spec.minus5 * FloatOps.absf (F := Ideal) (φ := .f32) (Ideal.div (v35 j) (v27 j + Cert.Spec.eps))) := rfl

/-! ## The block's loss partial -/

/-- A lane sum of a 32-row block kept as a column: at row k the sum of the block's row k. -/
theorem laneSum_apply (a : FVec Ideal S32x4096 .f32) (hr : S32x4096.Reduces [1] S32) (hs : S32.ShapeCasts S32x1)
    (hφ : FKind.Formats .f32) (hacc : (0x00000000#32 : BitVec 32) = FKind.add.neutral .f32 hφ) (k : Fin 32) (z : Fin 1) :
    shapeCast S32x1 (multiReduction (F := Ideal) .add [1] S32 a 0x00000000#32 hr hφ hacc) hs (ix2 k z)
      = ∑ c : Fin 4096, a (ix2 k c) := by
  refine (shapeCast_apply _ hs (ix2 k z) (ix1 k) ?_).trans ?_
  · rw [Shape.rowMajor_val_one, Shape.rowMajor_val_two]
    show k.val = k.val * 1 + z.val
    have := z.isLt; omega
  · refine (Ideal.multiReduction_add_single a _ hr hφ hacc (ix1 k)).trans ?_
    refine Finset.sum_congr rfl (fun c _ => congrArg a ?_)
    funext d
    match d with
    | ⟨0, _⟩ => rfl
    | ⟨1, _⟩ => rfl

/-- The two lane sums added, summed over the 32 rows and repeated over an [8,128] tile. -/
theorem pay2_apply (v35 v54 v62 v64 v72 v78 : FVec Ideal S32x4096 .f32) (j : S8x128.Idx) :
    k0_pay2 (F := Ideal) v35 v54 v62 v64 v72 v78 j
      = ∑ k : Fin 32,
          ((∑ c : Fin 4096, (v72 (ix2 k c) * v62 (ix2 k c) - v72 (ix2 k c) * v54 (ix2 k c))
              * (v72 (ix2 k c) * v62 (ix2 k c) - v72 (ix2 k c) * v54 (ix2 k c)))
            + (∑ c : Fin 4096, (v78 (ix2 k c) * v64 (ix2 k c) - v78 (ix2 k c) * v35 (ix2 k c))
              * (v78 (ix2 k c) * v64 (ix2 k c) - v78 (ix2 k c) * v35 (ix2 k c)))) := by
  unfold k0_pay2
  refine (broadcastTo_apply _ Facts₀.broadcasts_S1x1_S8x128 j (ix2 (0 : Fin 1) (0 : Fin 1)) (fun a => by
    match a with
    | ⟨0, _⟩ => rfl
    | ⟨1, _⟩ => rfl)).trans ?_
  refine (shapeCast_apply _ Facts₀.shapeCasts_S1x1_S1x1 (ix2 (0 : Fin 1) (0 : Fin 1)) (ix2 (0 : Fin 1) (0 : Fin 1)) rfl).trans ?_
  refine (shapeCast_apply _ Facts₀.shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ _ Facts₀.reduces_S32x1_S1 _ _ (ix1 (0 : Fin 1))).trans ?_
  refine Finset.sum_congr rfl (fun k _ => ?_)
  have e0 : Facts₀.reduces_S32x1_S1.lift (ix1 (0 : Fin 1)) k = ix2 (k : Fin 32) (0 : Fin 1) := funext fun d => by
    match d with
    | ⟨0, _⟩ => rfl
    | ⟨1, _⟩ => rfl
  rw [e0]
  exact congrArg₂ (fun a b : EReal => a + b) (laneSum_apply _ _ _ _ _ k 0) (laneSum_apply _ _ _ _ _ k 0)

/-! ## The row shifts at an index of block t -/

section RowShift
variable {α : Type} (f : Fin 4096 → Fin 4096 → α) (t : Fin 128) (i : grid0.Coords) (hi : (i 0).val = t.val)
  (v : S32x4096.Idx → α) (x : S8x4096.Idx → α)
  (hv : ∀ (p : Fin 32) (q : Fin 4096), v (ix2 p q) = f (row t p) q)
  (hx : ∀ q : Fin 4096, x (ix2 (0 : Fin 8) q) = f (peekRow t) q)

include hi hv hx in
/-- Rows 1 … 31 of block t, then the block's own last row at the last block and else the first row of the 8-row block
    that follows: the array's next row, the last row its own successor (32t+31+1 = 32(t+1)). -/
theorem rowUpSel_at (h31 : S32x4096.Slices ![31, 0] S1x4096) (hp0 : S8x4096.Slices ![0, 0] S1x4096)
    (hs : S32x4096.Slices ![1, 0] S31x4096) (hc : Shape.Concatenates [S31x4096, S1x4096] S32x4096 0) (p : Fin 32) (q : Fin 4096) :
    concatenate S32x4096 0 [⟨S31x4096, extractStridedSlice S31x4096 ![1, 0] v hs⟩,
      ⟨S1x4096, Scalar.select (Scalar.cmpi .eq (BitVec.ofNat 32 (i 0).val) 127#32)
        (extractStridedSlice S1x4096 ![31, 0] v h31) (extractStridedSlice S1x4096 ![0, 0] x hp0)⟩] hc (ix2 p q)
      = f (up (row t p)) q := by
  by_cases hp : p.val < 31
  · rw [rowUp_apply_lt v _ hs hc p q hp, hv]
    refine congrArg (fun r => f r q) (Fin.ext ?_)
    show 32 * t.val + (p.val + 1) = min (32 * t.val + p.val + 1) 4095
    have := t.isLt; omega
  · rw [rowUp_apply_last v _ hs hc p q hp, scalarSelect_apply, hi, lastBit t.val t.isLt]
    have hp31 : p.val = 31 := by have := p.isLt; omega
    by_cases ht : t.val = 127
    · rw [if_pos ht, select_one, row31_apply, hv]
      refine congrArg (fun r => f r q) (Fin.ext ?_)
      show 32 * t.val + 31 = min (32 * t.val + p.val + 1) 4095
      omega
    · rw [if_neg ht, select_zero, peek0_apply, hx]
      refine congrArg (fun r => f r q) (Fin.ext ?_)
      show min (32 * (t.val + 1)) 4088 = min (32 * t.val + p.val + 1) 4095
      have := t.isLt; omega

include hi hv in
/-- At the last block rows 0 … 30 and row 30 again, else the block itself: the array's row r below 4095, row 4094 at 4095. -/
theorem rowDnSel_at (hs : S32x4096.Slices ![0, 0] S31x4096) (h30 : S32x4096.Slices ![30, 0] S1x4096)
    (hc : Shape.Concatenates [S31x4096, S1x4096] S32x4096 0) (p : Fin 32) (q : Fin 4096) :
    (Scalar.select (Scalar.cmpi .eq (BitVec.ofNat 32 (i 0).val) 127#32)
      (concatenate S32x4096 0 [⟨S31x4096, extractStridedSlice S31x4096 ![0, 0] v hs⟩,
        ⟨S1x4096, extractStridedSlice S1x4096 ![30, 0] v h30⟩] hc) v) (ix2 p q)
      = f (dn (row t p)) q := by
  rw [scalarSelect_apply, hi, lastBit t.val t.isLt]
  by_cases ht : t.val = 127
  · rw [if_pos ht, select_one, rowDn_apply, hv]
    refine congrArg (fun r => f r q) (Fin.ext ?_)
    show 32 * t.val + (if p.val < 31 then p.val else 30) = (if 32 * t.val + p.val < 4095 then 32 * t.val + p.val else 4094)
    have := p.isLt
    split <;> split <;> omega
  · rw [if_neg ht, select_zero, hv]
    refine congrArg (fun r => f r q) (Fin.ext ?_)
    show 32 * t.val + p.val = (if 32 * t.val + p.val < 4095 then 32 * t.val + p.val else 4094)
    have := p.isLt; have := t.isLt
    rw [if_pos (by omega)]

end RowShift

/-! ## The body's values at an index of block t -/

section AtBlock
variable (T M S : Cert.Spec.Arr) (t : Fin 128) (i : grid0.Coords) (hi : (i 0).val = t.val)
  (x0 x1 x2 : Vec Ideal S32x4096 .f32) (x3 x4 x5 : Vec Ideal S8x4096 .f32)
  (h0 : ∀ (p : Fin 32) (q : Fin 4096), x0 (ix2 p q) = T (ix2 (row t p) q))
  (h1 : ∀ (p : Fin 32) (q : Fin 4096), x1 (ix2 p q) = M (ix2 (row t p) q))
  (h2 : ∀ (p : Fin 32) (q : Fin 4096), x2 (ix2 p q) = S (ix2 (row t p) q))
  (h3 : ∀ q : Fin 4096, x3 (ix2 (0 : Fin 8) q) = T (ix2 (peekRow t) q))
  (h4 : ∀ q : Fin 4096, x4 (ix2 (0 : Fin 8) q) = M (ix2 (peekRow t) q))
  (h5 : ∀ q : Fin 4096, x5 (ix2 (0 : Fin 8) q) = S (ix2 (peekRow t) q))

include h1 h2 in
/-- The effective mask of the block is the array's at the block's rows. -/
theorem me_at (p : Fin 32) (q : Fin 4096) : Hand.me x1 x2 (ix2 p q) = Cert.Spec.e M S (row t p) q := by
  unfold Hand.me
  rw [ldA, ldA, pay4_apply, h1, h2]
  rfl

include h1 h2 in
/-- The masked source of the block is the array's at the block's rows. -/
theorem sm_at (p : Fin 32) (q : Fin 4096) : Hand.sm x1 x2 (ix2 p q) = Cert.Spec.sm M S (row t p) q := by
  unfold Hand.sm
  rw [ldA, ldA, pay5_apply, h1, h2]
  rfl

include h1 h2 in
theorem gsx_at (p : Fin 32) (q : Fin 4096) : Hand.gsx x1 x2 (ix2 p q) = Cert.Spec.gsx M S (row t p) q := by
  unfold Hand.gsx
  rw [pay11_apply, sm_at M S t x1 x2 h1 h2, sm_at M S t x1 x2 h1 h2]
  rfl

include h1 h2 in
theorem wx_at (p : Fin 32) (q : Fin 4096) : Hand.wx x1 x2 (ix2 p q) = Cert.Spec.wx M S (row t p) q := by
  unfold Hand.wx
  rw [pay16_apply, pay11_apply, me_at M S t x1 x2 h1 h2, sm_at M S t x1 x2 h1 h2, sm_at M S t x1 x2 h1 h2]
  rfl

include hi h2 h5 in
/-- The source one row down the array (the row shift of the block). -/
theorem pay3_at (p : Fin 32) (q : Fin 4096) :
    k0_pay3 (F := Ideal) i x2 x5 (ix2 p q) = S (ix2 (up (row t p)) q) := by
  unfold k0_pay3
  exact rowUpSel_at (fun r c => S (ix2 r c)) t i hi x2 x5 h2 h5 _ _ _ _ p q

include hi h1 h2 h4 h5 in
/-- The effective mask one row down the array: computed from the shifted source and the shifted mask. -/
theorem pay6_at (p : Fin 32) (q : Fin 4096) :
    k0_pay6 (F := Ideal) i x1 x2 x4 x5 (ix2 p q) = Cert.Spec.e M S (up (row t p)) q := by
  have e := congrArg₂ (fun a b => Cert.Spec.ne0 a * b) (pay3_at S t i hi x2 x5 h2 h5 p q)
    (rowUpSel_at (fun r c => M (ix2 r c)) t i hi x1 x4 h1 h4 Facts₀.slices_S32x4096_o31_0_S1x4096 Facts₀.slices_S8x4096_o0_0_S1x4096
      Facts₀.slices_S32x4096_o1_0_S31x4096 Facts₀.concatenates_S31x4096_S1x4096_S32x4096_d0 p q)
  exact e

include hi h0 h3 in
/-- The target's forward difference along rows, before the edges are zeroed. -/
theorem gtyRaw_at (p : Fin 32) (q : Fin 4096) :
    Hand.gtyRaw i x0 x3 (ix2 p q) = T (ix2 (up (row t p)) q) - T (ix2 (row t p) q) := by
  unfold Hand.gtyRaw k0_pay7
  rw [ldA, ldB]
  have e := congrArg₂ (fun a b : EReal => a - b)
    (rowUpSel_at (fun r c => T (ix2 r c)) t i hi x0 x3 h0 h3 Facts₀.slices_S32x4096_o31_0_S1x4096 Facts₀.slices_S8x4096_o0_0_S1x4096
      Facts₀.slices_S32x4096_o1_0_S31x4096 Facts₀.concatenates_S31x4096_S1x4096_S32x4096_d0 p q) (h0 p q)
  exact e

include hi h1 h2 h4 h5 in
theorem gsy_at (p : Fin 32) (q : Fin 4096) : Hand.gsy i x1 x2 x4 x5 (ix2 p q) = Cert.Spec.gsy M S (row t p) q := by
  unfold Hand.gsy k0_pay8
  rw [ldA, ldA, ldB, ldB]
  have e := congrArg₂ (fun a b : EReal => a - b)
    (congrArg₂ (fun a b : EReal => a * b) (pay3_at S t i hi x2 x5 h2 h5 p q) (pay6_at M S t i hi x1 x2 x4 x5 h1 h2 h4 h5 p q))
    ((pay5_apply x1 x2 (ix2 p q)).trans (by rw [h1, h2]))
  exact e

include hi h1 h2 h4 h5 in
/-- The effective mask's centred difference along rows. -/
theorem gmy_at (p : Fin 32) (q : Fin 4096) : Hand.gmy i x1 x2 x4 x5 (ix2 p q) = Cert.Spec.gmy M S (row t p) q := by
  unfold Hand.gmy k0_pay9
  rw [ldA, ldA, ldB, ldB]
  have e := congrArg₂ (fun a b : EReal => a - b) (pay6_at M S t i hi x1 x2 x4 x5 h1 h2 h4 h5 p q)
    (rowDnSel_at (fun r c => Cert.Spec.e M S r c) t i hi (k0_pay4 (F := Ideal) x1 x2)
      (fun p q => (pay4_apply x1 x2 (ix2 p q)).trans (by rw [h1, h2]; rfl))
      Facts₀.slices_S32x4096_o0_0_S31x4096 Facts₀.slices_S32x4096_o30_0_S1x4096 Facts₀.concatenates_S31x4096_S1x4096_S32x4096_d0 p q)
  exact e

/-- The edge bit over any effective mask `v26` and row difference `v40`: the column difference of the mask or the row
    difference is not zero. -/
theorem pay12_apply (v26 v40 : FVec Ideal S32x4096 .f32) (p : Fin 32) (q : Fin 4096) :
    k0_pay12 (F := Ideal) v26 v40 (ix2 p q)
      = IntOp.ori (Ideal.cmp .one (v26 (ix2 p (up q)) - v26 (ix2 p (dn q))) Cert.Spec.zero)
          (Ideal.cmp .one (v40 (ix2 p q)) Cert.Spec.zero) := by
  unfold k0_pay12
  have e := congrArg₂ (fun a b : EReal => IntOp.ori (Ideal.cmp .one (a - b) Cert.Spec.zero) (Ideal.cmp .one (v40 (ix2 p q)) Cert.Spec.zero))
    (colUp_apply v26 Facts₀.slices_S32x4096_o0_1_S32x4095 Facts₀.slices_S32x4096_o0_4095_S32x1 Facts₀.concatenates_S32x4095_S32x1_S32x4096_d1 p q)
    (colDn_apply v26 Facts₀.slices_S32x4096_o0_0_S32x4095 Facts₀.slices_S32x4096_o0_4094_S32x1 Facts₀.concatenates_S32x4095_S32x1_S32x4096_d1 p q)
  exact e

include hi h1 h2 h4 h5 in
/-- The body's edge bit is the specification's. -/
theorem edge_at (p : Fin 32) (q : Fin 4096) :
    k0_pay12 (F := Ideal) (Hand.me x1 x2) (Hand.gmy i x1 x2 x4 x5) (ix2 p q) = Cert.Spec.edge M S (row t p) q := by
  rw [pay12_apply, me_at M S t x1 x2 h1 h2, me_at M S t x1 x2 h1 h2, gmy_at M S t i hi x1 x2 x4 x5 h1 h2 h4 h5]
  rfl

include h0 in
/-- The target one column on. -/
theorem txs_at (p : Fin 32) (q : Fin 4096) : Hand.txs x0 (ix2 p q) = T (ix2 (row t p) (up q)) := by
  unfold Hand.txs
  rw [ldA, pay10_apply, h0]

include hi h0 h1 h2 h4 h5 in
theorem gbx_at (p : Fin 32) (q : Fin 4096) : Hand.gbx i x0 x1 x2 x4 x5 (ix2 p q) = Cert.Spec.gbx T M S (row t p) q := by
  unfold Hand.gbx k0_pay13
  rw [ldA]
  have e := congrArg₂ (fun (c : BitVec 1) (d : EReal) => Scalar.select c Cert.Spec.zero d)
    (edge_at M S t i hi x1 x2 x4 x5 h1 h2 h4 h5 p q)
    (congrArg₂ (fun a b : EReal => a - b) (txs_at T t x0 h0 p q) (h0 p q))
  exact e

include hi h0 h1 h2 h3 h4 h5 in
theorem gby_at (p : Fin 32) (q : Fin 4096) : Hand.gby i x0 x1 x2 x3 x4 x5 (ix2 p q) = Cert.Spec.gby T M S (row t p) q := by
  unfold Hand.gby k0_pay14
  have e := congrArg₂ (fun (c : BitVec 1) (d : EReal) => Scalar.select c Cert.Spec.zero d)
    (edge_at M S t i hi x1 x2 x4 x5 h1 h2 h4 h5 p q) (gtyRaw_at T t i hi x0 x3 h0 h3 p q)
  exact e

include hi h1 h2 h4 h5 in
theorem wy_at (p : Fin 32) (q : Fin 4096) : Hand.wy i x1 x2 x4 x5 (ix2 p q) = Cert.Spec.wy M S (row t p) q := by
  unfold Hand.wy
  rw [pay17_apply, me_at M S t x1 x2 h1 h2, sm_at M S t x1 x2 h1 h2, gsy_at M S t i hi x1 x2 x4 x5 h1 h2 h4 h5]
  rfl

include hi h0 h1 h2 h3 h4 h5 in
/-- The block's partial, at every position of its [8,128] tile, is the block's total of squared weighted residuals. -/
theorem part_at (j : S8x128.Idx) : Hand.part i x0 x1 x2 x3 x4 x5 j = Cert.Spec.blockTotal T M S t := by
  unfold Hand.part
  rw [pay2_apply]
  unfold Cert.Spec.blockTotal
  refine Finset.sum_congr rfl (fun k _ => congrArg₂ (fun a b : EReal => a + b)
    (Finset.sum_congr rfl (fun c _ => ?_)) (Finset.sum_congr rfl (fun c _ => ?_)))
  · rw [wx_at M S t x1 x2 h1 h2, gbx_at T M S t i hi x0 x1 x2 x4 x5 h0 h1 h2 h4 h5, gsx_at M S t x1 x2 h1 h2]
    rfl
  · rw [wy_at M S t i hi x1 x2 x4 x5 h1 h2 h4 h5, gby_at T M S t i hi x0 x1 x2 x3 x4 x5 h0 h1 h2 h3 h4 h5,
      gsy_at M S t i hi x1 x2 x4 x5 h1 h2 h4 h5]
    rfl

end AtBlock

end Cert.KernelIdeal.PayValue

end
-- ==== Proof.LossLaw.lean ====
/-
  The one law that joins the two programs' losses. Squares of extended reals are non-negative; among non-negative
  extended reals multiplication distributes over addition; so: 128 block totals, each repeated 8·128 times, summed
  and divided by 1024, are the sum over all rows of the two row sums, and dividing that by 4096² is adding the two means.
-/
import proofs.«149716_j34935263986322_2_alg».proof.Proof.Spec

noncomputable section

open scoped BigOperators

namespace Cert.Spec

open Idealize.ShloMosaic Idealize.ShloMosaic.ValueIdx

theorem ofBits_zero : Ideal.ofBits .f32 0x00000000#32 = 0 := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_N : Ideal.ofBits .f32 0x4B800000#32 = ((16777216 : ℝ) : EReal) := by
  simp [Ideal.ofBits, Ideal.ieee, -EReal.coe_mul]; norm_num

/-- A square of an extended real is non-negative. -/
theorem mul_self_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

section
variable (T M S : Arr)

theorem sqx_nonneg (r c : Fin 4096) : 0 ≤ sqx T M S r c := mul_self_nonneg' _
theorem sqy_nonneg (r c : Fin 4096) : 0 ≤ sqy T M S r c := mul_self_nonneg' _

/-- The rows of the 128 blocks are all the rows. -/
theorem sum_rows (f : Fin 4096 → EReal) : ∑ b : Fin 128, ∑ k : Fin 32, f (row b k) = ∑ r : Fin 4096, f r := by
  rw [← Finset.sum_product' (f := fun b k => f (row b k))]
  refine Finset.sum_bij' (fun bk _ => row bk.1 bk.2) (fun r _ => (⟨r.val / 32, by omega⟩, ⟨r.val % 32, by omega⟩))
    (fun _ _ => Finset.mem_univ _) (fun _ _ => Finset.mem_univ _) ?_ ?_ (fun _ _ => rfl)
  · rintro ⟨b, k⟩ -
    ext <;> simp [row] <;> omega
  · intro r _
    ext; simp [row]; omega

/-- Each block's total counted 8 times over the 1024 rows of the partials. -/
theorem sum_eighths (g : Fin 128 → EReal) : ∑ u : Fin 1024, g ⟨u.val / 8, by omega⟩ = ∑ b : Fin 128, ∑ _v : Fin 8, g b := by
  rw [← Finset.sum_product' (f := fun b (_ : Fin 8) => g b)]
  refine (Finset.sum_bij' (fun bv _ => (⟨8 * bv.1.val + bv.2.val, by omega⟩ : Fin 1024)) (fun u _ => ((⟨u.val / 8, by omega⟩ : Fin 128), (⟨u.val % 8, by omega⟩ : Fin 8)))
    (fun _ _ => Finset.mem_univ _) (fun _ _ => Finset.mem_univ _) ?_ ?_ ?_).symm
  · rintro ⟨b, v⟩ -
    ext <;> simp <;> omega
  · intro u _
    ext; simp; omega
  · rintro ⟨b, v⟩ -
    congr 1; ext; simp; omega

theorem loss_eq : lossKer T M S = lossRef T M S := by
  unfold lossKer lossRef
  rw [show (zero : EReal) = 0 from ofBits_zero, ofBits_1024, ofBits_N, zero_add, zero_add, zero_add,
    Ideal.div_coe (by norm_num : (1024 : ℝ) ≠ 0), Ideal.div_coe (by norm_num : (16777216 : ℝ) ≠ 0),
    Ideal.div_coe (by norm_num : (16777216 : ℝ) ≠ 0), Ideal.div_coe (by norm_num : (16777216 : ℝ) ≠ 0)]
  set X : EReal := ∑ r : Fin 4096, ∑ c : Fin 4096, sqx T M S r c with hX
  set Y : EReal := ∑ r : Fin 4096, ∑ c : Fin 4096, sqy T M S r c with hY
  have hXn : 0 ≤ X := Finset.sum_nonneg fun r _ => Finset.sum_nonneg fun c _ => sqx_nonneg T M S r c
  have hYn : 0 ≤ Y := Finset.sum_nonneg fun r _ => Finset.sum_nonneg fun c _ => sqy_nonneg T M S r c
  have hB : ∑ b : Fin 128, blockTotal T M S b = X + Y := by
    unfold blockTotal
    rw [sum_rows (fun r => (∑ c : Fin 4096, sqx T M S r c) + ∑ c : Fin 4096, sqy T M S r c), Finset.sum_add_distrib]
  have hP : (∑ u : Fin 1024, ∑ _l : Fin 128, blockTotal T M S ⟨u.val / 8, by omega⟩) = ((1024 : ℝ) : EReal) * (X + Y) := by
    have h1 : ∀ u : Fin 1024, (∑ _l : Fin 128, blockTotal T M S ⟨u.val / 8, by omega⟩) = (128 : ℕ) • blockTotal T M S ⟨u.val / 8, by omega⟩ := fun u => by
      rw [Finset.sum_const, Finset.card_univ, Fintype.card_fin]
    rw [Finset.sum_congr rfl fun u _ => h1 u, ← Finset.smul_sum, sum_eighths (fun b => blockTotal T M S b)]
    have h2 : ∀ b : Fin 128, (∑ _v : Fin 8, blockTotal T M S b) = (8 : ℕ) • blockTotal T M S b := fun b => by
      rw [Finset.sum_const, Finset.card_univ, Fintype.card_fin]
    rw [Finset.sum_congr rfl fun b _ => h2 b, ← Finset.smul_sum, hB, smul_smul, EReal.nsmul_eq_mul]
    congr 1
  have hc : ((1024 : ℝ) : EReal) * (X + Y) * ((1 / 1024 : ℝ) : EReal) = X + Y := by
    rw [mul_comm ((1024 : ℝ) : EReal) (X + Y), mul_assoc, ← EReal.coe_mul,
      show (1024 : ℝ) * (1 / 1024 : ℝ) = 1 by norm_num, EReal.coe_one, mul_one]
  rw [hP, hc]
  exact EReal.right_distrib_of_nonneg hXn hYn

end

end Cert.Spec

end
-- ==== Proof.KIValue.lean ====
/-
  The idealized kernel's results: what each grid point writes back is its block of the specification's array, the
  blocks cover the arrays, so every result array ends at the specification's function of the three arguments, and the
  loss at the specification's kernel-side form, which the one law of the losses turns into the reference's.
-/
import proofs.«149716_j34935263986322_2_alg».proof.Proof.KIBlocks
import proofs.«149716_j34935263986322_2_alg».proof.Proof.KIPay
import proofs.«149716_j34935263986322_2_alg».proof.Proof.LossLaw

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.Spec (row peekRow)

variable (m : (ℓ : Loc nD τ sig) → Buf (Elt Ideal) ℓ) (ρ : Dev nD → PrngReg)

/-! ## The four difference arrays -/

/-- What point `t` writes back through window 7 is block `t` of the specification's array. -/
theorem flushed7 (c : Dev nD) (t : Fin cfg0.N) :
    (dats m 0 c).flushed 7 t = ((cfg0.win 7).blk t).view.read (Elt Ideal) (Cert.Spec.GBX (T m c) (M m c) (S m c)) := by
  show (cfg0.win 7).cut (grid0.coords t) ((dats m 0 c).after 7 t) = _
  rw [after0_7]
  unfold out0_7
  rw [View.canon_unit_zero hz]
  obtain ⟨e0r, e0c, e1r, e1c, e2r, e2c, e3r, e3c, e4r, e4c, e5r, e5c, e6r, e6c, e7r, e7c, e8r, e8c, e9r, e9c, e10r, e10c, e11r, e11c⟩ := idx_facts t
  funext (j : S32x4096.Idx)
  obtain ⟨p, q, rfl⟩ : ∃ (p : Fin 32) (q : Fin 4096), j = ix2 p q := ⟨j 0, j 1, eq_ix2 j⟩
  show Hand.gbx (grid0.coords t) (iblk m c 0 t) (iblk m c 1 t) (iblk m c 2 t) (iblk m c 4 t) (iblk m c 5 t) (ix2 p q) = Cert.Spec.GBX _ _ _ (((cfg0.win 7).blk t).view.emb (ix2 p q))
  rw [PayValue.gbx_at (T m c) (M m c) (S m c) (blkNo t) (grid0.coords t) (coords_val t) _ _ _ _ _ (blk0 m c t) (blk1 m c t) (blk2 m c t) (blk4 m c t) (blk5 m c t) p q]
  unfold Cert.Spec.GBX
  congr 1 <;> apply Fin.ext
  · show 32 * t.val + p.val = win0_7.index t (0 : Fin 2) * 32 + 1 * p.val; omega
  · show q.val = win0_7.index t (1 : Fin 2) * 4096 + 1 * q.val; omega

theorem final7 (c : Dev nD) : (dats m 0 c).arrAt 7 cfg0.N = Cert.Spec.GBX (T m c) (M m c) (S m c) :=
  (dats m 0 c).arrAt_eq_of_cover 7 _ (fun t _ => flushed7 m c t) cover7

/-- What point `t` writes back through window 8 is block `t` of the specification's array. -/
theorem flushed8 (c : Dev nD) (t : Fin cfg0.N) :
    (dats m 0 c).flushed 8 t = ((cfg0.win 8).blk t).view.read (Elt Ideal) (Cert.Spec.GBY (T m c) (M m c) (S m c)) := by
  show (cfg0.win 8).cut (grid0.coords t) ((dats m 0 c).after 8 t) = _
  rw [after0_8]
  unfold out0_8
  rw [View.canon_unit_zero hz]
  obtain ⟨e0r, e0c, e1r, e1c, e2r, e2c, e3r, e3c, e4r, e4c, e5r, e5c, e6r, e6c, e7r, e7c, e8r, e8c, e9r, e9c, e10r, e10c, e11r, e11c⟩ := idx_facts t
  funext (j : S32x4096.Idx)
  obtain ⟨p, q, rfl⟩ : ∃ (p : Fin 32) (q : Fin 4096), j = ix2 p q := ⟨j 0, j 1, eq_ix2 j⟩
  show Hand.gby (grid0.coords t) (iblk m c 0 t) (iblk m c 1 t) (iblk m c 2 t) (iblk m c 3 t) (iblk m c 4 t) (iblk m c 5 t) (ix2 p q) = Cert.Spec.GBY _ _ _ (((cfg0.win 8).blk t).view.emb (ix2 p q))
  rw [PayValue.gby_at (T m c) (M m c) (S m c) (blkNo t) (grid0.coords t) (coords_val t) _ _ _ _ _ _ (blk0 m c t) (blk1 m c t) (blk2 m c t) (blk3 m c t) (blk4 m c t) (blk5 m c t) p q]
  unfold Cert.Spec.GBY
  congr 1 <;> apply Fin.ext
  · show 32 * t.val + p.val = win0_8.index t (0 : Fin 2) * 32 + 1 * p.val; omega
  · show q.val = win0_8.index t (1 : Fin 2) * 4096 + 1 * q.val; omega

theorem final8 (c : Dev nD) : (dats m 0 c).arrAt 8 cfg0.N = Cert.Spec.GBY (T m c) (M m c) (S m c) :=
  (dats m 0 c).arrAt_eq_of_cover 8 _ (fun t _ => flushed8 m c t) cover8

/-- What point `t` writes back through window 9 is block `t` of the specification's array. -/
theorem flushed9 (c : Dev nD) (t : Fin cfg0.N) :
    (dats m 0 c).flushed 9 t = ((cfg0.win 9).blk t).view.read (Elt Ideal) (Cert.Spec.GSX (M m c) (S m c)) := by
  show (cfg0.win 9).cut (grid0.coords t) ((dats m 0 c).after 9 t) = _
  rw [after0_9]
  unfold out0_9
  rw [View.canon_unit_zero hz]
  obtain ⟨e0r, e0c, e1r, e1c, e2r, e2c, e3r, e3c, e4r, e4c, e5r, e5c, e6r, e6c, e7r, e7c, e8r, e8c, e9r, e9c, e10r, e10c, e11r, e11c⟩ := idx_facts t
  funext (j : S32x4096.Idx)
  obtain ⟨p, q, rfl⟩ : ∃ (p : Fin 32) (q : Fin 4096), j = ix2 p q := ⟨j 0, j 1, eq_ix2 j⟩
  show Hand.gsx (iblk m c 1 t) (iblk m c 2 t) (ix2 p q) = Cert.Spec.GSX _ _ (((cfg0.win 9).blk t).view.emb (ix2 p q))
  rw [PayValue.gsx_at (M m c) (S m c) (blkNo t) _ _ (blk1 m c t) (blk2 m c t) p q]
  unfold Cert.Spec.GSX
  congr 1 <;> apply Fin.ext
  · show 32 * t.val + p.val = win0_9.index t (0 : Fin 2) * 32 + 1 * p.val; omega
  · show q.val = win0_9.index t (1 : Fin 2) * 4096 + 1 * q.val; omega

theorem final9 (c : Dev nD) : (dats m 0 c).arrAt 9 cfg0.N = Cert.Spec.GSX (M m c) (S m c) :=
  (dats m 0 c).arrAt_eq_of_cover 9 _ (fun t _ => flushed9 m c t) cover9

/-- What point `t` writes back through window 10 is block `t` of the specification's array. -/
theorem flushed10 (c : Dev nD) (t : Fin cfg0.N) :
    (dats m 0 c).flushed 10 t = ((cfg0.win 10).blk t).view.read (Elt Ideal) (Cert.Spec.GSY (M m c) (S m c)) := by
  show (cfg0.win 10).cut (grid0.coords t) ((dats m 0 c).after 10 t) = _
  rw [after0_10]
  unfold out0_10
  rw [View.canon_unit_zero hz]
  obtain ⟨e0r, e0c, e1r, e1c, e2r, e2c, e3r, e3c, e4r, e4c, e5r, e5c, e6r, e6c, e7r, e7c, e8r, e8c, e9r, e9c, e10r, e10c, e11r, e11c⟩ := idx_facts t
  funext (j : S32x4096.Idx)
  obtain ⟨p, q, rfl⟩ : ∃ (p : Fin 32) (q : Fin 4096), j = ix2 p q := ⟨j 0, j 1, eq_ix2 j⟩
  show Hand.gsy (grid0.coords t) (iblk m c 1 t) (iblk m c 2 t) (iblk m c 4 t) (iblk m c 5 t) (ix2 p q) = Cert.Spec.GSY _ _ (((cfg0.win 10).blk t).view.emb (ix2 p q))
  rw [PayValue.gsy_at (M m c) (S m c) (blkNo t) (grid0.coords t) (coords_val t) _ _ _ _ (blk1 m c t) (blk2 m c t) (blk4 m c t) (blk5 m c t) p q]
  unfold Cert.Spec.GSY
  congr 1 <;> apply Fin.ext
  · show 32 * t.val + p.val = win0_10.index t (0 : Fin 2) * 32 + 1 * p.val; omega
  · show q.val = win0_10.index t (1 : Fin 2) * 4096 + 1 * q.val; omega

theorem final10 (c : Dev nD) : (dats m 0 c).arrAt 10 cfg0.N = Cert.Spec.GSY (M m c) (S m c) :=
  (dats m 0 c).arrAt_eq_of_cover 10 _ (fun t _ => flushed10 m c t) cover10

/-! ## The weights, side by side -/

theorem flushed6 (c : Dev nD) (t : Fin cfg0.N) :
    (dats m 0 c).flushed 6 t = ((cfg0.win 6).blk t).view.read (Elt Ideal) (Cert.Spec.WEIGHT (M m c) (S m c)) := by
  show (cfg0.win 6).cut (grid0.coords t) ((dats m 0 c).after 6 t) = _
  rw [after0_6]
  unfold out0_6
  obtain ⟨e0r, e0c, e1r, e1c, e2r, e2c, e3r, e3c, e4r, e4c, e5r, e5c, e6r, e6c, e7r, e7c, e8r, e8c, e9r, e9c, e10r, e10c, e11r, e11c⟩ := idx_facts t
  funext (j : S32x12288.Idx)
  refine (View.canon_apply_of_pieces (fun y : S32x12288.Idx => Cert.Spec.WEIGHT (M m c) (S m c) (((cfg0.win 6).blk t).view.emb y)) _ ?_ j (cover0_6 _ _ _ j)).trans rfl
  intro pc hpc x
  simp only [List.mem_cons, List.mem_nil_iff, or_false] at hpc
  rcases hpc with rfl | rfl | rfl
  · -- the zeros, columns 8192 …
    revert x; intro (x : S32x4096.Idx)
    obtain ⟨p, q, rfl⟩ : ∃ (p : Fin 32) (q : Fin 4096), x = ix2 p q := ⟨x 0, x 1, eq_ix2 x⟩
    show (k0_pay1 (F := Ideal)) (ix2 p q) = Cert.Spec.WEIGHT _ _ (((cfg0.win 6).blk t).view.emb (rW2.emb (ix2 p q)))
    have hc : ((((cfg0.win 6).blk t).view.emb (rW2.emb (ix2 p q))) 1).val = 8192 + q.val := by
      show win0_6.index t (1 : Fin 2) * 12288 + 1 * (8192 + 1 * q.val) = 8192 + q.val; omega
    unfold Cert.Spec.WEIGHT
    rw [dif_neg (by omega), dif_neg (by omega)]
    rfl
  · -- the row weights, columns 4096 …
    revert x; intro (x : S32x4096.Idx)
    obtain ⟨p, q, rfl⟩ : ∃ (p : Fin 32) (q : Fin 4096), x = ix2 p q := ⟨x 0, x 1, eq_ix2 x⟩
    show Hand.wy (grid0.coords t) (iblk m c 1 t) (iblk m c 2 t) (iblk m c 4 t) (iblk m c 5 t) (ix2 p q) = Cert.Spec.WEIGHT _ _ (((cfg0.win 6).blk t).view.emb (rW1.emb (ix2 p q)))
    have hc : ((((cfg0.win 6).blk t).view.emb (rW1.emb (ix2 p q))) 1).val = 4096 + q.val := by
      show win0_6.index t (1 : Fin 2) * 12288 + 1 * (4096 + 1 * q.val) = 4096 + q.val; omega
    have hr : ((((cfg0.win 6).blk t).view.emb (rW1.emb (ix2 p q))) 0).val = 32 * t.val + p.val := by
      show win0_6.index t (0 : Fin 2) * 32 + 1 * (0 + 1 * p.val) = 32 * t.val + p.val; omega
    rw [PayValue.wy_at (M m c) (S m c) (blkNo t) (grid0.coords t) (coords_val t) _ _ _ _ (blk1 m c t) (blk2 m c t) (blk4 m c t) (blk5 m c t) p q]
    unfold Cert.Spec.WEIGHT
    rw [dif_neg (by omega), dif_pos (by omega)]
    exact congrArg₂ (Cert.Spec.wy (M m c) (S m c)) (Fin.ext hr.symm) (Fin.ext (by
      show q.val = ((((cfg0.win 6).blk t).view.emb (rW1.emb (ix2 p q))) 1).val - 4096; omega))
  · -- the column weights, columns 0 …
    revert x; intro (x : S32x4096.Idx)
    obtain ⟨p, q, rfl⟩ : ∃ (p : Fin 32) (q : Fin 4096), x = ix2 p q := ⟨x 0, x 1, eq_ix2 x⟩
    show Hand.wx (iblk m c 1 t) (iblk m c 2 t) (ix2 p q) = Cert.Spec.WEIGHT _ _ (((cfg0.win 6).blk t).view.emb (rW0.emb (ix2 p q)))
    have hc : ((((cfg0.win 6).blk t).view.emb (rW0.emb (ix2 p q))) 1).val = q.val := by
      show win0_6.index t (1 : Fin 2) * 12288 + 1 * (0 + 1 * q.val) = q.val; omega
    have hr : ((((cfg0.win 6).blk t).view.emb (rW0.emb (ix2 p q))) 0).val = 32 * t.val + p.val := by
      show win0_6.index t (0 : Fin 2) * 32 + 1 * (0 + 1 * p.val) = 32 * t.val + p.val; omega
    rw [PayValue.wx_at (M m c) (S m c) (blkNo t) _ _ (blk1 m c t) (blk2 m c t) p q]
    unfold Cert.Spec.WEIGHT
    rw [dif_pos (by omega)]
    exact congrArg₂ (Cert.Spec.wx (M m c) (S m c)) (Fin.ext hr.symm) (Fin.ext hc.symm)

theorem final6 (c : Dev nD) : (dats m 0 c).arrAt 6 cfg0.N = Cert.Spec.WEIGHT (M m c) (S m c) :=
  (dats m 0 c).arrAt_eq_of_cover 6 _ (fun t _ => flushed6 m c t) cover6

/-! ## The loss partials and the loss -/

theorem flushed11 (c : Dev nD) (t : Fin cfg0.N) :
    (dats m 0 c).flushed 11 t = ((cfg0.win 11).blk t).view.read (Elt Ideal) (Cert.Spec.PART (T m c) (M m c) (S m c)) := by
  show (cfg0.win 11).cut (grid0.coords t) ((dats m 0 c).after 11 t) = _
  rw [after0_11]
  unfold out0_11
  rw [View.canon_unit_zero hz]
  obtain ⟨e0r, e0c, e1r, e1c, e2r, e2c, e3r, e3c, e4r, e4c, e5r, e5c, e6r, e6c, e7r, e7c, e8r, e8c, e9r, e9c, e10r, e10c, e11r, e11c⟩ := idx_facts t
  funext (j : S8x128.Idx)
  show Hand.part (grid0.coords t) (iblk m c 0 t) (iblk m c 1 t) (iblk m c 2 t) (iblk m c 3 t) (iblk m c 4 t) (iblk m c 5 t) j = Cert.Spec.PART _ _ _ (((cfg0.win 11).blk t).view.emb j)
  rw [PayValue.part_at (T m c) (M m c) (S m c) (blkNo t) (grid0.coords t) (coords_val t) _ _ _ _ _ _ (blk0 m c t) (blk1 m c t) (blk2 m c t) (blk3 m c t) (blk4 m c t) (blk5 m c t) j]
  unfold Cert.Spec.PART
  congr 1; apply Fin.ext
  have hj : (j 0).val < 8 := (j 0).isLt
  show t.val = (win0_11.index t (0 : Fin 2) * 8 + 1 * (j 0).val) / 8; omega

theorem final11 (c : Dev nD) : (dats m 0 c).arrAt 11 cfg0.N = Cert.Spec.PART (T m c) (M m c) (S m c) :=
  (dats m 0 c).arrAt_eq_of_cover 11 _ (fun t _ => flushed11 m c t) cover11

/-- The host lines after the region: the partials summed, divided by 1024 and by 4096². -/
theorem loss_val (c : Dev nD) :
    Wt m c (Proc.devRef .tc main_v3) = fun _ => Cert.Spec.lossRef (T m c) (M m c) (S m c) := by
  rw [← Cert.Spec.loss_eq]
  unfold Wt
  show StableHlo.after hostOps1 (Wx m c) (Proc.devRef .tc main_v3) = _
  after_results
  rw [Wx_partials, final11]
  funext j
  simp only [Host.divf, Host.reduceAdd, constant, Ideal.hostDivf_def, Ideal.hostReduceAdd_def, Ideal.ofBits_def]
  rw [Ideal.hostReduceAdd_total _ (fun b => b.elim0), sum_idx2]
  rfl

/-! ## The run, read -/

theorem run : θ_run (defs (F := Ideal)) (onTc (τ := τ) (main (F := Ideal))) ⟨m, fun _ => 0, ρ⟩ fun r => ∀ c : Dev nD,
      r.2.mem ((c.tc : Thread nD τ).loc main_v3) = (fun _ => Cert.Spec.lossRef (T m c) (M m c) (S m c))
      ∧ r.2.mem ((c.tc : Thread nD τ).loc main_v0_0) = Cert.Spec.WEIGHT (M m c) (S m c)
      ∧ r.2.mem ((c.tc : Thread nD τ).loc main_v0_1) = Cert.Spec.GBX (T m c) (M m c) (S m c)
      ∧ r.2.mem ((c.tc : Thread nD τ).loc main_v0_2) = Cert.Spec.GBY (T m c) (M m c) (S m c)
      ∧ r.2.mem ((c.tc : Thread nD τ).loc main_v0_3) = Cert.Spec.GSX (M m c) (S m c)
      ∧ r.2.mem ((c.tc : Thread nD τ).loc main_v0_4) = Cert.Spec.GSY (M m c) (S m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans (loss_val m c),
      ((h c).1 6).trans (final6 m c), ((h c).1 7).trans (final7 m c), ((h c).1 8).trans (final8 m c),
      ((h c).1 9).trans (final9 m c), ((h c).1 10).trans (final10 m c),
      ((h c).1 0).trans ((dats m 0 c).arrAt_in 0 rfl _), ((h c).1 1).trans ((dats m 0 c).arrAt_in 1 rfl _),
      ((h c).1 2).trans ((dats m 0 c).arrAt_in 2 rfl _)⟩) (run_main m ρ)

end Cert.KernelIdeal.KValue

end
-- ==== Proof.RefIsSpec.lean ====
/-
  The reference's results, read off its run, are the specification's functions of the three argument arrays.

  Each result is read index by index. The effective mask e = [S ≠ 0]·M and the masked source sm = S·e are pointwise.
  A difference along an axis with the last slice appended is the slice [1:] minus the slice [:-1] of the array joined
  with its own last slice, so at (r,c) it reads the array at the successor index, clamped at the end, minus the array
  at (r,c). The difference with its own last slice repeated reads (successor, index) below the last index and
  (4095, 4094) at the last one. The weights are three arrays side by side; the loss is the sum of two means, each a
  sum over every index divided by the number of entries.
-/
import proofs.«149716_j34935263986322_2_alg».proof.Proof.Gen.ReferenceIdeal.Run
import proofs.«149716_j34935263986322_2_alg».proof.Proof.Gen.ReferenceIdeal.Read
import proofs.«149716_j34935263986322_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Spec (Arr up dn)

/-! ## Joined arrays read at an index -/

/-- An array joined on the right with its own last column, read at (r, k): the array at (r, min k 4095). -/
theorem cat_lastcol (x : S4096x4096.Idx → EReal) (r : Fin 4096) (k : Fin 4097) :
    concatenate S4096x4097 1 [⟨S4096x4096, x⟩, ⟨S4096x1, extractStridedSlice S4096x1 ![0, 4095] x slices_S4096x4096_S4096x1_0_4095⟩]
        concatenates_S4096x4096_S4096x1_S4096x4097_d1 (ix2 r k)
      = x (ix2 r ⟨min k.val 4095, by omega⟩) := by
  by_cases hk : k.val < 4096
  · refine (concatenate_pair_apply_left 1 x _ concatenates_S4096x4096_S4096x1_S4096x4097_d1 (ix2 r k) rfl (ix2 r ⟨k.val, hk⟩)
      (fun b => match b with | ⟨0, _⟩ => rfl | ⟨1, _⟩ => rfl)).trans ?_
    exact congrArg x (congrArg (ix2 r) (Fin.ext (by show k.val = min k.val 4095; omega)))
  · have hk' : k.val = 4096 := by have := k.isLt; omega
    refine (concatenate_pair_apply_right 1 x _ concatenates_S4096x4096_S4096x1_S4096x4097_d1 (ix2 r k) rfl rfl (ix2 r (0 : Fin 1))
      (fun b => match b with | ⟨0, _⟩ => fun _ => rfl | ⟨1, _⟩ => fun hne => absurd rfl hne)
      (by show (0 : ℕ) + 4096 = k.val; omega)).trans ?_
    refine (extractStridedSlice_apply ![0, 4095] x slices_S4096x4096_S4096x1_0_4095 (ix2 r (0 : Fin 1)) (ix2 r ⟨4095, by omega⟩)
      (fun a => match a with | ⟨0, _⟩ => by show r.val = 0 + r.val; omega | ⟨1, _⟩ => by show 4095 = 4095 + 0; omega)).trans ?_
    exact congrArg x (congrArg (ix2 r) (Fin.ext (by show 4095 = min k.val 4095; omega)))

/-- An array joined below with its own last row, read at (k, c): the array at (min k 4095, c). -/
theorem cat_lastrow (x : S4096x4096.Idx → EReal) (k : Fin 4097) (c : Fin 4096) :
    concatenate S4097x4096 0 [⟨S4096x4096, x⟩, ⟨S1x4096, extractStridedSlice S1x4096 ![4095, 0] x slices_S4096x4096_S1x4096_4095_0⟩]
        concatenates_S4096x4096_S1x4096_S4097x4096_d0 (ix2 k c)
      = x (ix2 ⟨min k.val 4095, by omega⟩ c) := by
  by_cases hk : k.val < 4096
  · refine (concatenate_pair_apply_left 0 x _ concatenates_S4096x4096_S1x4096_S4097x4096_d0 (ix2 k c) rfl (ix2 ⟨k.val, hk⟩ c)
      (fun b => match b with | ⟨0, _⟩ => rfl | ⟨1, _⟩ => rfl)).trans ?_
    exact congrArg x (congrArg (fun t => ix2 t c) (Fin.ext (by show k.val = min k.val 4095; omega)))
  · have hk' : k.val = 4096 := by have := k.isLt; omega
    refine (concatenate_pair_apply_right 0 x _ concatenates_S4096x4096_S1x4096_S4097x4096_d0 (ix2 k c) rfl rfl (ix2 (0 : Fin 1) c)
      (fun b => match b with | ⟨0, _⟩ => fun hne => absurd rfl hne | ⟨1, _⟩ => fun _ => rfl)
      (by show (0 : ℕ) + 4096 = k.val; omega)).trans ?_
    refine (extractStridedSlice_apply ![4095, 0] x slices_S4096x4096_S1x4096_4095_0 (ix2 (0 : Fin 1) c) (ix2 ⟨4095, by omega⟩ c)
      (fun a => match a with | ⟨0, _⟩ => by show 4095 = 4095 + 0; omega | ⟨1, _⟩ => by show c.val = 0 + c.val; omega)).trans ?_
    exact congrArg x (congrArg (fun t => ix2 t c) (Fin.ext (by show 4095 = min k.val 4095; omega)))

/-- A [4096, 4095] array joined on the right with its own last column, read at (r, c): the array at (r, min c 4094). -/
theorem cat_duplast_col (d : S4096x4095.Idx → EReal) (r : Fin 4096) (c : Fin 4096) :
    concatenate S4096x4096 1 [⟨S4096x4095, d⟩, ⟨S4096x1, extractStridedSlice S4096x1 ![0, 4094] d slices_S4096x4095_S4096x1_0_4094⟩]
        concatenates_S4096x4095_S4096x1_S4096x4096_d1 (ix2 r c)
      = d (ix2 r ⟨min c.val 4094, by omega⟩) := by
  by_cases hc : c.val < 4095
  · refine (concatenate_pair_apply_left 1 d _ concatenates_S4096x4095_S4096x1_S4096x4096_d1 (ix2 r c) rfl (ix2 r ⟨c.val, hc⟩)
      (fun b => match b with | ⟨0, _⟩ => rfl | ⟨1, _⟩ => rfl)).trans ?_
    exact congrArg d (congrArg (ix2 r) (Fin.ext (by show c.val = min c.val 4094; omega)))
  · have hc' : c.val = 4095 := by have := c.isLt; omega
    refine (concatenate_pair_apply_right 1 d _ concatenates_S4096x4095_S4096x1_S4096x4096_d1 (ix2 r c) rfl rfl (ix2 r (0 : Fin 1))
      (fun b => match b with | ⟨0, _⟩ => fun _ => rfl | ⟨1, _⟩ => fun hne => absurd rfl hne)
      (by show (0 : ℕ) + 4095 = c.val; omega)).trans ?_
    refine (extractStridedSlice_apply ![0, 4094] d slices_S4096x4095_S4096x1_0_4094 (ix2 r (0 : Fin 1)) (ix2 r ⟨4094, by omega⟩)
      (fun a => match a with | ⟨0, _⟩ => by show r.val = 0 + r.val; omega | ⟨1, _⟩ => by show 4094 = 4094 + 0; omega)).trans ?_
    exact congrArg d (congrArg (ix2 r) (Fin.ext (by show 4094 = min c.val 4094; omega)))

/-- A [4095, 4096] array joined below with its own last row, read at (r, c): the array at (min r 4094, c). -/
theorem cat_duplast_row (d : S4095x4096.Idx → EReal) (r : Fin 4096) (c : Fin 4096) :
    concatenate S4096x4096 0 [⟨S4095x4096, d⟩, ⟨S1x4096, extractStridedSlice S1x4096 ![4094, 0] d slices_S4095x4096_S1x4096_4094_0⟩]
        concatenates_S4095x4096_S1x4096_S4096x4096_d0 (ix2 r c)
      = d (ix2 ⟨min r.val 4094, by omega⟩ c) := by
  by_cases hr : r.val < 4095
  · refine (concatenate_pair_apply_left 0 d _ concatenates_S4095x4096_S1x4096_S4096x4096_d0 (ix2 r c) rfl (ix2 ⟨r.val, hr⟩ c)
      (fun b => match b with | ⟨0, _⟩ => rfl | ⟨1, _⟩ => rfl)).trans ?_
    exact congrArg d (congrArg (fun t => ix2 t c) (Fin.ext (by show r.val = min r.val 4094; omega)))
  · have hr' : r.val = 4095 := by have := r.isLt; omega
    refine (concatenate_pair_apply_right 0 d _ concatenates_S4095x4096_S1x4096_S4096x4096_d0 (ix2 r c) rfl rfl (ix2 (0 : Fin 1) c)
      (fun b => match b with | ⟨0, _⟩ => fun hne => absurd rfl hne | ⟨1, _⟩ => fun _ => rfl)
      (by show (0 : ℕ) + 4095 = r.val; omega)).trans ?_
    refine (extractStridedSlice_apply ![4094, 0] d slices_S4095x4096_S1x4096_4094_0 (ix2 (0 : Fin 1) c) (ix2 ⟨4094, by omega⟩ c)
      (fun a => match a with | ⟨0, _⟩ => by show 4094 = 4094 + 0; omega | ⟨1, _⟩ => by show c.val = 0 + c.val; omega)).trans ?_
    exact congrArg d (congrArg (fun t => ix2 t c) (Fin.ext (by show 4094 = min r.val 4094; omega)))

/-! ## The comparison's bit as a number -/

/-- A one-bit word widened to 32 bits and read signed is the bit read unsigned. -/
theorem bit_toInt (b : BitVec 1) : (((b.setWidth 32).toInt : ℤ) : ℝ) = ((b.toNat : ℕ) : ℝ) := by
  rcases BitVec.eq_zero_or_eq_one b with h | h <;> subst h <;> simp

/-- The widened comparison bit of the specification is the reference's conversion of the bit to a float. -/
theorem uitofp_cmp (x : EReal) :
    FloatOps.uitofp (F := Ideal) .f32 (FloatOps.cmpf (F := Ideal) (φ := .f32) .une x (FloatOps.ofBits (F := Ideal) .f32 0x00000000#32)) = Cert.Spec.ne0 x := by
  unfold Cert.Spec.ne0
  rw [bit_toInt]
  rfl

/-! ## Three arrays side by side -/

/-- Three [4096, 4096] arrays joined along the columns, read at (r, c): the array whose span holds c. -/
theorem cat3 (x y z : S4096x4096.Idx → EReal) (r : Fin 4096) (c : Fin 12288) :
    concatenate S4096x12288 1 [⟨S4096x4096, x⟩, ⟨S4096x4096, y⟩, ⟨S4096x4096, z⟩]
        concatenates_S4096x4096_S4096x4096_S4096x4096_S4096x12288_d1 (ix2 r c)
      = if h : c.val < 4096 then x (ix2 r ⟨c.val, h⟩)
        else if h2 : c.val < 8192 then y (ix2 r ⟨c.val - 4096, by omega⟩)
        else z (ix2 r ⟨c.val - 8192, by have := c.isLt; omega⟩) := by
  by_cases h : c.val < 4096
  · rw [dif_pos h]
    exact concatenate_apply_piece (t := S4096x12288) 1 [⟨S4096x4096, x⟩, ⟨S4096x4096, y⟩, ⟨S4096x4096, z⟩] concatenates_S4096x4096_S4096x4096_S4096x4096_S4096x12288_d1 (ix2 r c) 0 (by show 0 < 3; omega)
      S4096x4096 x rfl rfl 0 rfl (ix2 r ⟨c.val, h⟩)
      (fun b => match b with | ⟨0, _⟩ => fun _ => rfl | ⟨1, _⟩ => fun hne => absurd rfl hne)
      (by show 0 + c.val = c.val; omega)
  · rw [dif_neg h]
    by_cases h2 : c.val < 8192
    · rw [dif_pos h2]
      exact concatenate_apply_piece (t := S4096x12288) 1 [⟨S4096x4096, x⟩, ⟨S4096x4096, y⟩, ⟨S4096x4096, z⟩] concatenates_S4096x4096_S4096x4096_S4096x4096_S4096x12288_d1 (ix2 r c) 1 (by show 1 < 3; omega)
        S4096x4096 y rfl rfl 4096 rfl (ix2 r ⟨c.val - 4096, by omega⟩)
        (fun b => match b with | ⟨0, _⟩ => fun _ => rfl | ⟨1, _⟩ => fun hne => absurd rfl hne)
        (by show 4096 + (c.val - 4096) = c.val; omega)
    · rw [dif_neg h2]
      exact concatenate_apply_piece (t := S4096x12288) 1 [⟨S4096x4096, x⟩, ⟨S4096x4096, y⟩, ⟨S4096x4096, z⟩] concatenates_S4096x4096_S4096x4096_S4096x4096_S4096x12288_d1 (ix2 r c) 2 (by show 2 < 3; omega)
        S4096x4096 z rfl rfl 8192 rfl (ix2 r ⟨c.val - 8192, by have := c.isLt; omega⟩)
        (fun b => match b with | ⟨0, _⟩ => fun _ => rfl | ⟨1, _⟩ => fun hne => absurd rfl hne)
        (by show 8192 + (c.val - 8192) = c.val; omega)

/-! ## The effective mask and the masked source -/

section
variable (T M S : Arr)

/-- The effective mask [S ≠ 0]·M at (r, c). -/
theorem v3_at (r c : Fin 4096) : val_main_v3 (F := Ideal) M S (ix2 r c) = Cert.Spec.e M S r c := by
  rw [val_main_v3_apply, val_main_v2_apply, val_main_v1_apply, val_main_v0_apply, val_main_cst_apply, uitofp_cmp]
  rfl

/-- The masked source S·e at (r, c). -/
theorem v4_at (r c : Fin 4096) : val_main_v4 (F := Ideal) M S (ix2 r c) = Cert.Spec.sm M S r c := by
  rw [val_main_v4_apply, v3_at]
  rfl

/-- The masked source again (the denominator's copy). -/
theorem v26_at (r c : Fin 4096) : val_main_v26 (F := Ideal) M S (ix2 r c) = Cert.Spec.sm M S r c := by
  rw [val_main_v26_apply, v3_at]
  rfl

/-! ## The differences with the last slice appended -/

/-- The masked source joined with its last column, at (r, k): the masked source at (r, min k 4095). -/
theorem call2_v0_at (r : Fin 4096) (k : Fin 4097) (k' : Fin 4096) (hk : k'.val = min k.val 4095) :
    val_main_call2_v0 (F := Ideal) M S (ix2 r k) = Cert.Spec.sm M S r k' := by
  exact ((cat_lastcol (val_main_v4 (F := Ideal) M S) r k).trans (v4_at M S r _)).trans
    (congrArg (Cert.Spec.sm M S r) (Fin.ext hk.symm))

/-- The masked source joined with its last row, at (k, c): the masked source at (min k 4095, c). -/
theorem call3_v0_at (k : Fin 4097) (c : Fin 4096) (k' : Fin 4096) (hk : k'.val = min k.val 4095) :
    val_main_call3_v0 (F := Ideal) M S (ix2 k c) = Cert.Spec.sm M S k' c := by
  exact ((cat_lastrow (val_main_v4 (F := Ideal) M S) k c).trans (v4_at M S _ c)).trans
    (congrArg (fun t => Cert.Spec.sm M S t c) (Fin.ext hk.symm))

/-- The source gradient along the columns. -/
theorem v10_at (r c : Fin 4096) : val_main_v10 (F := Ideal) M S (ix2 r c) = Cert.Spec.gsx M S r c := by
  have h1 : val_main_call2_v1 (F := Ideal) M S (ix2 r c) = Cert.Spec.sm M S r (up c) := by
    rw [val_main_call2_v1_apply, show idx_main_call2_v1 (ix2 r c) = ix2 r (⟨1 + c.val, by omega⟩ : Fin 4097) from
      funext fun a => match a with | ⟨0, _⟩ => rfl | ⟨1, _⟩ => rfl]
    exact call2_v0_at M S r _ (up c) (by show min (c.val + 1) 4095 = min (1 + c.val) 4095; omega)
  have h2 : val_main_call2_v2 (F := Ideal) M S (ix2 r c) = Cert.Spec.sm M S r c := by
    rw [val_main_call2_v2_apply, show idx_main_call2_v2 (ix2 r c) = ix2 r (⟨c.val, by omega⟩ : Fin 4097) from
      funext fun a => match a with | ⟨0, _⟩ => rfl | ⟨1, _⟩ => rfl]
    exact call2_v0_at M S r _ c (by show c.val = min c.val 4095; omega)
  rw [val_main_v10_apply, h1, h2]
  rfl

/-- The source gradient along the rows. -/
theorem v12_at (r c : Fin 4096) : val_main_v12 (F := Ideal) M S (ix2 r c) = Cert.Spec.gsy M S r c := by
  have h1 : val_main_call3_v1 (F := Ideal) M S (ix2 r c) = Cert.Spec.sm M S (up r) c := by
    rw [val_main_call3_v1_apply, show idx_main_call3_v1 (ix2 r c) = ix2 (⟨1 + r.val, by omega⟩ : Fin 4097) c from
      funext fun a => match a with | ⟨0, _⟩ => rfl | ⟨1, _⟩ => rfl]
    exact call3_v0_at M S _ c (up r) (by show min (r.val + 1) 4095 = min (1 + r.val) 4095; omega)
  have h2 : val_main_call3_v2 (F := Ideal) M S (ix2 r c) = Cert.Spec.sm M S r c := by
    rw [val_main_call3_v2_apply, show idx_main_call3_v2 (ix2 r c) = ix2 (⟨r.val, by omega⟩ : Fin 4097) c from
      funext fun a => match a with | ⟨0, _⟩ => rfl | ⟨1, _⟩ => rfl]
    exact call3_v0_at M S _ c r (by show r.val = min r.val 4095; omega)
  rw [val_main_v12_apply, h1, h2]
  rfl

theorem gsx_eq : val_main_v10 (F := Ideal) M S = Cert.Spec.GSX M S := by
  funext j
  obtain ⟨r, c, rfl⟩ : ∃ (r : Fin 4096) (c : Fin 4096), j = ix2 r c := ⟨j 0, j 1, eq_ix2 j⟩
  exact v10_at M S r c

theorem gsy_eq : val_main_v12 (F := Ideal) M S = Cert.Spec.GSY M S := by
  funext j
  obtain ⟨r, c, rfl⟩ : ∃ (r : Fin 4096) (c : Fin 4096), j = ix2 r c := ⟨j 0, j 1, eq_ix2 j⟩
  exact v12_at M S r c

end

/-! ## The target's differences and the mask's edges -/

section
variable (T M S : Arr)

/-- The target joined with its last column, at (r, k). -/
theorem call0_v0_at (r : Fin 4096) (k : Fin 4097) (k' : Fin 4096) (hk : k'.val = min k.val 4095) :
    val_main_call0_v0 (F := Ideal) T (ix2 r k) = T (ix2 r k') :=
  (cat_lastcol T r k).trans (congrArg (fun t => T (ix2 r t)) (Fin.ext hk.symm))

/-- The target joined with its last row, at (k, c). -/
theorem call1_v0_at (k : Fin 4097) (c : Fin 4096) (k' : Fin 4096) (hk : k'.val = min k.val 4095) :
    val_main_call1_v0 (F := Ideal) T (ix2 k c) = T (ix2 k' c) :=
  (cat_lastrow T k c).trans (congrArg (fun t => T (ix2 t c)) (Fin.ext hk.symm))

/-- The target's difference along the columns. -/
theorem v6_at (r c : Fin 4096) : val_main_v6 (F := Ideal) T (ix2 r c) = T (ix2 r (up c)) - T (ix2 r c) := by
  have h1 : val_main_call0_v1 (F := Ideal) T (ix2 r c) = T (ix2 r (up c)) := by
    rw [val_main_call0_v1_apply, show idx_main_call0_v1 (ix2 r c) = ix2 r (⟨1 + c.val, by omega⟩ : Fin 4097) from
      funext fun a => match a with | ⟨0, _⟩ => rfl | ⟨1, _⟩ => rfl]
    exact call0_v0_at T r _ (up c) (by show min (c.val + 1) 4095 = min (1 + c.val) 4095; omega)
  have h2 : val_main_call0_v2 (F := Ideal) T (ix2 r c) = T (ix2 r c) := by
    rw [val_main_call0_v2_apply, show idx_main_call0_v2 (ix2 r c) = ix2 r (⟨c.val, by omega⟩ : Fin 4097) from
      funext fun a => match a with | ⟨0, _⟩ => rfl | ⟨1, _⟩ => rfl]
    exact call0_v0_at T r _ c (by show c.val = min c.val 4095; omega)
  rw [val_main_v6_apply, h1, h2]
  rfl

/-- The target's difference along the rows. -/
theorem v8_at (r c : Fin 4096) : val_main_v8 (F := Ideal) T (ix2 r c) = T (ix2 (up r) c) - T (ix2 r c) := by
  have h1 : val_main_call1_v1 (F := Ideal) T (ix2 r c) = T (ix2 (up r) c) := by
    rw [val_main_call1_v1_apply, show idx_main_call1_v1 (ix2 r c) = ix2 (⟨1 + r.val, by omega⟩ : Fin 4097) c from
      funext fun a => match a with | ⟨0, _⟩ => rfl | ⟨1, _⟩ => rfl]
    exact call1_v0_at T _ c (up r) (by show min (r.val + 1) 4095 = min (1 + r.val) 4095; omega)
  have h2 : val_main_call1_v2 (F := Ideal) T (ix2 r c) = T (ix2 r c) := by
    rw [val_main_call1_v2_apply, show idx_main_call1_v2 (ix2 r c) = ix2 (⟨r.val, by omega⟩ : Fin 4097) c from
      funext fun a => match a with | ⟨0, _⟩ => rfl | ⟨1, _⟩ => rfl]
    exact call1_v0_at T _ c r (by show r.val = min r.val 4095; omega)
  rw [val_main_v8_apply, h1, h2]
  rfl

/-- The effective mask's plain difference along the columns at (r, k), k below 4095: e(r, k+1) − e(r, k). -/
theorem v13_at (r : Fin 4096) (k : Fin 4095) (a b : Fin 4096) (ha : a.val = k.val + 1) (hb : b.val = k.val) :
    val_main_v13 (F := Ideal) M S (ix2 r k) = Cert.Spec.e M S r a - Cert.Spec.e M S r b := by
  have h1 : val_main_call4_v0 (F := Ideal) M S (ix2 r k) = Cert.Spec.e M S r a := by
    rw [val_main_call4_v0_apply, show idx_main_call4_v0 (ix2 r k) = ix2 r a from
      funext fun d => match d with | ⟨0, _⟩ => rfl | ⟨1, _⟩ => Fin.ext (by show 1 + k.val = a.val; omega)]
    exact v3_at M S r a
  have h2 : val_main_call4_v1 (F := Ideal) M S (ix2 r k) = Cert.Spec.e M S r b := by
    rw [val_main_call4_v1_apply, show idx_main_call4_v1 (ix2 r k) = ix2 r b from
      funext fun d => match d with | ⟨0, _⟩ => rfl | ⟨1, _⟩ => Fin.ext (by show k.val = b.val; omega)]
    exact v3_at M S r b
  rw [val_main_v13_apply, h1, h2]
  rfl

/-- The effective mask's plain difference along the rows at (k, c), k below 4095: e(k+1, c) − e(k, c). -/
theorem v16_at (k : Fin 4095) (c : Fin 4096) (a b : Fin 4096) (ha : a.val = k.val + 1) (hb : b.val = k.val) :
    val_main_v16 (F := Ideal) M S (ix2 k c) = Cert.Spec.e M S a c - Cert.Spec.e M S b c := by
  have h1 : val_main_call5_v0 (F := Ideal) M S (ix2 k c) = Cert.Spec.e M S a c := by
    rw [val_main_call5_v0_apply, show idx_main_call5_v0 (ix2 k c) = ix2 a c from
      funext fun d => match d with | ⟨0, _⟩ => Fin.ext (by show 1 + k.val = a.val; omega) | ⟨1, _⟩ => rfl]
    exact v3_at M S a c
  have h2 : val_main_call5_v1 (F := Ideal) M S (ix2 k c) = Cert.Spec.e M S b c := by
    rw [val_main_call5_v1_apply, show idx_main_call5_v1 (ix2 k c) = ix2 b c from
      funext fun d => match d with | ⟨0, _⟩ => Fin.ext (by show k.val = b.val; omega) | ⟨1, _⟩ => rfl]
    exact v3_at M S b c
  rw [val_main_v16_apply, h1, h2]
  rfl

/-- The mask gradient along the columns, its last difference repeated. -/
theorem v15_at (r c : Fin 4096) : val_main_v15 (F := Ideal) M S (ix2 r c) = Cert.Spec.gmx M S r c :=
  (cat_duplast_col (val_main_v13 (F := Ideal) M S) r c).trans
    (v13_at M S r ⟨min c.val 4094, by omega⟩ (up c) (dn c)
      (by show min (c.val + 1) 4095 = min c.val 4094 + 1; omega)
      (by show (if c.val < 4095 then c.val else 4094) = min c.val 4094; split <;> omega))

/-- The mask gradient along the rows, its last difference repeated. -/
theorem v18_at (r c : Fin 4096) : val_main_v18 (F := Ideal) M S (ix2 r c) = Cert.Spec.gmy M S r c :=
  (cat_duplast_row (val_main_v16 (F := Ideal) M S) r c).trans
    (v16_at M S ⟨min r.val 4094, by omega⟩ c (up r) (dn r)
      (by show min (r.val + 1) 4095 = min r.val 4094 + 1; omega)
      (by show (if r.val < 4095 then r.val else 4094) = min r.val 4094; split <;> omega))

/-- The edge bit. -/
theorem v23_at (r c : Fin 4096) : val_main_v23 (F := Ideal) M S (ix2 r c) = Cert.Spec.edge M S r c := by
  rw [val_main_v23_apply, val_main_v20_apply, val_main_v22_apply, val_main_v19_apply, val_main_v21_apply,
    val_main_cst_0_apply, val_main_cst_1_apply, v15_at, v18_at]
  rfl

/-- The blended gradient along the columns. -/
theorem v24_at (r c : Fin 4096) : val_main_v24 (F := Ideal) T M S (ix2 r c) = Cert.Spec.gbx T M S r c := by
  rw [val_main_v24_apply, val_main_call6_v1_apply, val_main_call6_v0_apply, val_main_cst_2_apply, v23_at, v6_at]
  rfl

/-- The blended gradient along the rows. -/
theorem v25_at (r c : Fin 4096) : val_main_v25 (F := Ideal) T M S (ix2 r c) = Cert.Spec.gby T M S r c := by
  rw [val_main_v25_apply, val_main_call7_v1_apply, val_main_call7_v0_apply, val_main_cst_3_apply, v23_at, v8_at]
  rfl

theorem gbx_eq : val_main_v24 (F := Ideal) T M S = Cert.Spec.GBX T M S := by
  funext j
  obtain ⟨r, c, rfl⟩ : ∃ (r : Fin 4096) (c : Fin 4096), j = ix2 r c := ⟨j 0, j 1, eq_ix2 j⟩
  exact v24_at T M S r c

theorem gby_eq : val_main_v25 (F := Ideal) T M S = Cert.Spec.GBY T M S := by
  funext j
  obtain ⟨r, c, rfl⟩ : ∃ (r : Fin 4096) (c : Fin 4096), j = ix2 r c := ⟨j 0, j 1, eq_ix2 j⟩
  exact v25_at T M S r c

end

/-! ## The weights -/

section
variable (T M S : Arr)

/-- The denominator sm + ε. -/
theorem v28_at (r c : Fin 4096) : val_main_v28 (F := Ideal) M S (ix2 r c) = Cert.Spec.den M S r c := by
  rw [val_main_v28_apply, val_main_v27_apply, val_main_cst_4_apply, v26_at]
  rfl

/-- The weight along the columns: e · exp(−5 · |gsx / (sm + ε)|). -/
theorem v34_at (r c : Fin 4096) : val_main_v34 (F := Ideal) M S (ix2 r c) = Cert.Spec.wx M S r c := by
  rw [val_main_v34_apply, val_main_v33_apply, val_main_v32_apply, val_main_v31_apply, val_main_cst_5_apply,
    val_main_v30_apply, val_main_v29_apply, v3_at, v10_at, v28_at]
  rfl

/-- The weight along the rows: e · exp(−5 · |gsy / (sm + ε)|). -/
theorem v40_at (r c : Fin 4096) : val_main_v40 (F := Ideal) M S (ix2 r c) = Cert.Spec.wy M S r c := by
  rw [val_main_v40_apply, val_main_v39_apply, val_main_v38_apply, val_main_v37_apply, val_main_cst_6_apply,
    val_main_v36_apply, val_main_v35_apply, v3_at, v12_at, v28_at]
  rfl

/-- The zero block. -/
theorem v54_at (j : S4096x4096.Idx) : val_main_v54 (F := Ideal) j = Cert.Spec.zero := by
  rw [val_main_v54_apply, val_main_cst_11_apply]
  rfl

/-- The specification's weights at (r, c), by the span that holds c. -/
theorem WEIGHT_at (r : Fin 4096) (c : Fin 12288) :
    Cert.Spec.WEIGHT M S (ix2 r c) = if h : c.val < 4096 then Cert.Spec.wx M S r ⟨c.val, h⟩
      else if h2 : c.val < 8192 then Cert.Spec.wy M S r ⟨c.val - 4096, by omega⟩ else Cert.Spec.zero := rfl

theorem weight_eq : val_main_v55 (F := Ideal) M S = Cert.Spec.WEIGHT M S := by
  funext j
  obtain ⟨r, c, rfl⟩ : ∃ (r : Fin 4096) (c : Fin 12288), j = ix2 r c := ⟨j 0, j 1, eq_ix2 j⟩
  rw [WEIGHT_at]
  refine (cat3 (val_main_v34 (F := Ideal) M S) (val_main_v40 (F := Ideal) M S) (val_main_v54 (F := Ideal)) r c).trans ?_
  by_cases h : c.val < 4096
  · rw [dif_pos h, dif_pos h]
    exact v34_at M S r _
  · rw [dif_neg h, dif_neg h]
    by_cases h2 : c.val < 8192
    · rw [dif_pos h2, dif_pos h2]
      exact v40_at M S r _
    · rw [dif_neg h2, dif_neg h2]
      exact v54_at _

/-! ## The loss -/

/-- The squared residual along the columns. -/
theorem v44_at (r c : Fin 4096) : val_main_v44 (F := Ideal) T M S (ix2 r c) = Cert.Spec.sqx T M S r c := by
  rw [val_main_v44_apply, val_main_v43_apply, val_main_v41_apply, val_main_v42_apply, v34_at, v24_at, v10_at]
  rfl

/-- The squared residual along the rows. -/
theorem v50_at (r c : Fin 4096) : val_main_v50 (F := Ideal) T M S (ix2 r c) = Cert.Spec.sqy T M S r c := by
  rw [val_main_v50_apply, val_main_v49_apply, val_main_v47_apply, val_main_v48_apply, v40_at, v25_at, v12_at]
  rfl

/-- The first mean's numerator: zero plus the double sum of the squared residuals. -/
theorem v45_at (i : S_.Idx) :
    val_main_v45 (F := Ideal) T M S i = Cert.Spec.zero + ∑ r : Fin 4096, ∑ c : Fin 4096, Cert.Spec.sqx T M S r c := by
  rw [val_main_v45_apply, val_main_cst_7_apply, sum_idx2]
  simp only [v44_at]
  rfl

/-- The second mean's numerator. -/
theorem v51_at (i : S_.Idx) :
    val_main_v51 (F := Ideal) T M S i = Cert.Spec.zero + ∑ r : Fin 4096, ∑ c : Fin 4096, Cert.Spec.sqy T M S r c := by
  rw [val_main_v51_apply, val_main_cst_9_apply, sum_idx2]
  simp only [v50_at]
  rfl

theorem loss_eq : val_main_v53 (F := Ideal) T M S = fun _ => Cert.Spec.lossRef T M S := by
  funext i
  rw [val_main_v53_apply, val_main_v46_apply, val_main_v52_apply, val_main_cst_8_apply, val_main_cst_10_apply, v45_at, v51_at]
  rfl

end

/-! ## The run at the specification -/

/-- The target array of device `c` at launch. -/
abbrev T (m : (ℓ : Loc nD τ sig) → Buf (Elt Ideal) ℓ) (c : Dev nD) : Cert.Spec.Arr := m ((c.tc : Thread nD τ).loc main_arg0)
/-- The mask array of device `c` at launch. -/
abbrev M (m : (ℓ : Loc nD τ sig) → Buf (Elt Ideal) ℓ) (c : Dev nD) : Cert.Spec.Arr := m ((c.tc : Thread nD τ).loc main_arg1)
/-- The source array of device `c` at launch. -/
abbrev S (m : (ℓ : Loc nD τ sig) → Buf (Elt Ideal) ℓ) (c : Dev nD) : Cert.Spec.Arr := m ((c.tc : Thread nD τ).loc main_arg2)

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = (fun _ => Cert.Spec.lossRef (T m c) (M m c) (S m c))
      ∧ r.2.mem ((c.tc : Thread nD τ).loc main_v55) = Cert.Spec.WEIGHT (M m c) (S m c)
      ∧ r.2.mem ((c.tc : Thread nD τ).loc main_v24) = Cert.Spec.GBX (T m c) (M m c) (S m c)
      ∧ r.2.mem ((c.tc : Thread nD τ).loc main_v25) = Cert.Spec.GBY (T m c) (M m c) (S m c)
      ∧ r.2.mem ((c.tc : Thread nD τ).loc main_v10) = Cert.Spec.GSX (M m c) (S m c)
      ∧ r.2.mem ((c.tc : Thread nD τ).loc main_v12) = Cert.Spec.GSY (M m c) (S m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.ReferenceIdeal.Value.run (F := Ideal) m ρ)
  obtain ⟨h1, h2, h3, h4, h5, h6, h7⟩ := h c
  refine ⟨h1.trans ?_, h2.trans ?_, h3.trans ?_, h4.trans ?_, h5.trans ?_, h6.trans ?_, h7⟩
  · exact (val_main_v53_eq (F := Ideal) m c).trans (loss_eq _ _ _)
  · exact (val_main_v55_eq (F := Ideal) m c).trans (weight_eq _ _)
  · exact (val_main_v24_eq (F := Ideal) _ _ _).trans (gbx_eq _ _ _)
  · exact (val_main_v25_eq (F := Ideal) _ _ _).trans (gby_eq _ _ _)
  · exact (val_main_v10_eq (F := Ideal) _ _).trans (gsx_eq _ _)
  · exact (val_main_v12_eq (F := Ideal) _ _).trans (gsy_eq _ _)

end Cert.ReferenceIdeal.RefValue

end
-- ==== Proof.lean ====
/-
  The weighted Poisson blend loss, a fused kernel against its array-level reference.

  The kernel walks the [4096, 4096] target, mask and source in 128 blocks of 32 rows; the row after a block's last row
  comes from an 8-row window on the same array that starts where the next block starts (at the last block: the block's
  own last row, which is how both programs treat the array's last row). Target, mask and source are therefore each
  read through two windows; the arrays are held half and half by the two. Each grid point writes its block of the
  four difference arrays and of the three weight panels, and one 8×128 tile holding the block's sum of squared
  weighted residuals; the host sums the tiles and divides by 1024 and by 4096².

  Every result of either program is one function of the three arguments (Proof/Spec.lean): the kernel's because each
  point writes back its block of that function and the blocks cover the arrays (Proof/KIValue.lean, over the values
  of Proof/KIPay.lean and the run of Proof/KIRun.lean), the reference's by reading its operations at an index
  (Proof/RefIsSpec.lean). The two losses group one sum of non-negative terms differently; non-negative extended reals
  distribute, so they agree with no finiteness assumption (Proof/LossLaw.lean). The ideal pass rewrote nothing, so
  the idealization is the kernel's own text and `preserves` has nothing to state.
-/
import proofs.«149716_j34935263986322_2_alg».proof.Defs
import proofs.«149716_j34935263986322_2_alg».proof.Proof.Gen.Kernel
import proofs.«149716_j34935263986322_2_alg».proof.Proof.Gen.KernelIdeal
import proofs.«149716_j34935263986322_2_alg».proof.Proof.Gen.ReferenceIdeal
import proofs.«149716_j34935263986322_2_alg».proof.Proof.Gen.Pre_finite_inputs
import proofs.«149716_j34935263986322_2_alg».proof.Proof.KBFrame
import proofs.«149716_j34935263986322_2_alg».proof.Proof.KIFrame
import proofs.«149716_j34935263986322_2_alg».proof.Proof.KIValue
import proofs.«149716_j34935263986322_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the results dropped. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

theorem preserves : Cert.preserves_Kernel_KernelIdeal := trivial

/-- From memories that agree on target, mask and source, both programs end with every result at the specification's
    function of those three arrays. -/
theorem algebraic : Cert.algebraic_KernelIdeal_ReferenceIdeal := by
  intro m ρ m' ρ' _ hagree
  refine ⟨fun c => fun _ => Cert.Spec.lossRef (Cert.KernelIdeal.KValue.T m c) (Cert.KernelIdeal.KValue.M m c) (Cert.KernelIdeal.KValue.S m c),
    fun c => Cert.Spec.WEIGHT (Cert.KernelIdeal.KValue.M m c) (Cert.KernelIdeal.KValue.S m c),
    fun c => Cert.Spec.GBX (Cert.KernelIdeal.KValue.T m c) (Cert.KernelIdeal.KValue.M m c) (Cert.KernelIdeal.KValue.S m c),
    fun c => Cert.Spec.GBY (Cert.KernelIdeal.KValue.T m c) (Cert.KernelIdeal.KValue.M m c) (Cert.KernelIdeal.KValue.S m c),
    fun c => Cert.Spec.GSX (Cert.KernelIdeal.KValue.M m c) (Cert.KernelIdeal.KValue.S m c),
    fun c => Cert.Spec.GSY (Cert.KernelIdeal.KValue.M m c) (Cert.KernelIdeal.KValue.S m c),
    Cert.KernelIdeal.KValue.run m ρ, ?_⟩
  refine (θ_run Cert.ReferenceIdeal.defs _ _).mono (fun r h c => ?_) (Cert.ReferenceIdeal.RefValue.run_spec m' ρ')
  obtain ⟨h0, h1, h2, h3, h4, h5, ha0, ha1, ha2⟩ := h c
  obtain ⟨e0, e1, e2⟩ := hagree c
  refine ⟨h0.trans ?_, h1.trans ?_, h2.trans ?_, h3.trans ?_, h4.trans ?_, h5.trans ?_, ha0, ha1, ha2⟩
  all_goals
    simp only [Cert.ReferenceIdeal.RefValue.T, Cert.ReferenceIdeal.RefValue.M, Cert.ReferenceIdeal.RefValue.S, e0, e1, e2] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
